-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x16384 : Shape := ⟨2, ![16384, 16384]⟩
abbrev S128x64 : Shape := ⟨2, ![128, 64]⟩
abbrev S64x64 : Shape := ⟨2, ![64, 64]⟩
abbrev S64 : Shape := ⟨1, ![64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S16384 32) (main_arg1 : FVec F S16384x16384 .f32) (main_arg2 : FVec F S128x64 .f32) (main_arg3 : FVec F S64x64 .f32) (main_arg4 : FVec F S64 .f32) (main_arg5 : FVec F S64x64 .f32) (main_arg6 : FVec F S64 .f32) : IVec S_ 1 :=
  let main_v0 : FVec F S16384x16384 .f32 := Host.absf main_arg1
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S16384 : Shape := ⟨1, ![16384]⟩
abbrev S16384x16384 : Shape := ⟨2, ![16384, 16384]⟩
abbrev S128x64 : Shape := ⟨2, ![128, 64]⟩
abbrev S64x64 : Shape := ⟨2, ![64, 64]⟩
abbrev S64 : Shape := ⟨1, ![64]⟩
abbrev S_ : Shape := ⟨0, ![]⟩
abbrev S16384x1 : Shape := ⟨2, ![16384, 1]⟩
abbrev S16384x64 : Shape := ⟨2, ![16384, 64]⟩
abbrev S1x64 : Shape := ⟨2, ![1, 64]⟩
abbrev S2048x2048 : Shape := ⟨2, ![2048, 2048]⟩
abbrev S2048x64 : Shape := ⟨2, ![2048, 64]⟩

abbrev nBuf : Space → Nat
  | .hbm => 34
  | .vmem => 14
  | .smem => 0
  | _ => 0

abbrev bufTy : (tb : Table) → Fin (tcTables nBuf tb) → BufTy
  | .hbm, ⟨0, _⟩ => ⟨S16384, .i32⟩
  | .hbm, ⟨1, _⟩ => ⟨S16384x16384, .f32⟩
  | .hbm, ⟨2, _⟩ => ⟨S128x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x64, .f32⟩
  | .hbm, ⟨16, _⟩ => ⟨S16384x64, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S_, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S1x64, .f32⟩
  | .hbm, ⟨26, _⟩ => ⟨S16384x64, .f32⟩
  | .hbm, ⟨27, _⟩ => ⟨S16384x64, .f32⟩
  | .hbm, ⟨28, _⟩ => ⟨S_, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S_, .f32⟩
  | .hbm, ⟨33, _⟩ => ⟨S64, .f32⟩
  | .local _ .vmem, ⟨0, _⟩ => ⟨S2048x2048, .f32⟩
  | .local _ .vmem, ⟨1, _⟩ => ⟨S2048x2048, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x2048, .f32⟩
  | .local _ .vmem, ⟨8, _⟩ => ⟨S2048x2048, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_cst : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  reducesTo_S16384x64_S64_d0 : S16384x64.ReducesTo [0] S64
  h_S_ : 0 < S_.numel
  gather_S128x64_S16384x1_S16384x64_1_0_n_n_0_1_164_wf : GatherDims.WF S128x64 S16384x1 S16384x64 [1] [0] [] [0] [] 1 ![1, 64]
  dot_S16384x64_S64x64_S16384x64_1_0_0_1_n_n_wf : DotDims.WF S16384x64 S64x64 S16384x64 [1] [0] [0] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .f32 = 32 ∨ (Rect.block (s := S16384x16384) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)

variable [Facts₀]

def gather_S128x64_S16384x1_S16384x64_1_0_n_n_0_1_164 : GatherDims S128x64 S16384x1 S16384x64 where
  offsetDims := [1]
  collapsedSliceDims := [0]
  operandBatchingDims := []
  startIndicesBatchingDims := []
  startIndexMap := [0]
  indexVectorDim := 1
  sliceSizes := ![1, 64]
  wf := gather_S128x64_S16384x1_S16384x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384 : Shape := ⟨1, ![16384]⟩
abbrev S16384x16384 : Shape := ⟨2, ![16384, 16384]⟩
abbrev S128x64 : Shape := ⟨2, ![128, 64]⟩
abbrev S64x64 : Shape := ⟨2, ![64, 64]⟩
abbrev S64 : Shape := ⟨1, ![64]⟩
abbrev S_ : Shape := ⟨0, ![]⟩
abbrev S16384x1 : Shape := ⟨2, ![16384, 1]⟩
abbrev S16384x64 : Shape := ⟨2, ![16384, 64]⟩
abbrev S1x64 : Shape := ⟨2, ![1, 64]⟩

abbrev nBuf : Space → Nat
  | .hbm => 34
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x16384, .f32⟩
  | .hbm, ⟨2, _⟩ => ⟨S128x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x64, .f32⟩
  | .hbm, ⟨16, _⟩ => ⟨S16384x64, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S_, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S1x64, .f32⟩
  | .hbm, ⟨26, _⟩ => ⟨S16384x64, .f32⟩
  | .hbm, ⟨27, _⟩ => ⟨S16384x64, .f32⟩
  | .hbm, ⟨28, _⟩ => ⟨S_, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S_, .f32⟩
  | .hbm, ⟨33, _⟩ => ⟨S64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_cst : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384x64_S64_d0 : S16384x64.ReducesTo [0] S64
  h_S_ : 0 < S_.numel
  gather_S128x64_S16384x1_S16384x64_1_0_n_n_0_1_164_wf : GatherDims.WF S128x64 S16384x1 S16384x64 [1] [0] [] [0] [] 1 ![1, 64]
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []

variable [Facts₀]

def gather_S128x64_S16384x1_S16384x64_1_0_n_n_0_1_164 : GatherDims S128x64 S16384x1 S16384x64 where
  offsetDims := [1]
  collapsedSliceDims := [0]
  operandBatchingDims := []
  startIndicesBatchingDims := []
  startIndexMap := [0]
  indexVectorDim := 1
  sliceSizes := ![1, 64]
  wf := gather_S128x64_S16384x1_S16384x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.KR0Shared.lean ====
/-
  Pooling step 1 (the first adjacency product): what its three case runs and its proof data share.

  The grid has 8 x 8 points; point t has row tile t / 8 and reduction tile t % 8.  At a point the body sees the
  2048 x 2048 tile (t / 8, t % 8) of the adjacency matrix, the 2048 x 64 tile (t % 8) of the features, and the
  2048 x 64 output tile (t / 8).  The accumulator scratch is reset where t % 8 = 0 and copied to the output tile
  where t % 8 = 7; the output tile is written back to its array only at those last points.
-/
import proofs.«112922_j28157805593353_1_alg».proof.Proof.Gen.Kernel.Launch
import proofs.«112922_j28157805593353_1_alg».proof.Proof.Gen.Kernel.Skeleton
import proofs.«112922_j28157805593353_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the structural look recurses once per coordinate of the long axes
set_option maxRecDepth 16384

noncomputable section

namespace Cert.Kernel.Pool0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement here is made at this parameter
variable (V : (c : Dev nD) → (b : Ref sig .tc) → Buf (Elt F) ((c : Thread nD τ).loc b))

/-! ## The tiles -/

/-- Window `w`'s tile at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds the point's tile whenever the body starts: it is fetched at every
    point and the body never stores into it. -/
theorem before_adj {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the feature window. -/
theorem before_feat {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the 64 points -/

/-- "This is the first reduction tile": the condition under which the accumulator is reset. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last reduction tile": the condition under which the accumulator is copied to the output tile. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are live -/

theorem live_adj : ∀ t : Fin cfg0.N, cfg0.idle 0 (grid0.coords t) = false := by decide +kernel
theorem live_feat : ∀ t : Fin cfg0.N, cfg0.idle 1 (grid0.coords t) = false := by decide +kernel
/-- Away from the last reduction tile nothing is stored into the output tile, and it is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At the last reduction tile the output tile is stored whole. -/
theorem live_out : ∀ t : Fin cfg0.N, isLast (grid0.coords t) → cfg0.idle 2 (grid0.coords t) = false := by decide +kernel

/-! ## The memrefs the body is called with -/

abbrev mAdj (t : Fin cfg0.N) : Memref sig .tc .vmem S2048x2048 .f32 := win0_0.stage (cfg0.slots t 0)
abbrev hAdj (t : Fin cfg0.N) : (mAdj t).IsWhole := hstage0_0 ((cfg0.slots t 0).cast nbuf0_0)
abbrev mFeat (t : Fin cfg0.N) : Memref sig .tc .vmem S2048x64 .f32 := win0_1.stage (cfg0.slots t 1)
abbrev hFeat (t : Fin cfg0.N) : (mFeat t).IsWhole := hstage0_1 ((cfg0.slots t 1).cast nbuf0_1)
abbrev mOut (t : Fin cfg0.N) : Memref sig .tc .vmem S2048x64 .f32 := win0_2.stage (cfg0.slots t 2)
abbrev hOut (t : Fin cfg0.N) : (mOut t).IsWhole := hstage0_2 ((cfg0.slots t 2).cast nbuf0_2)
/-- The accumulator: a whole scoped buffer of the kernel's own. -/
abbrev mAcc : Memref sig .tc .vmem S2048x64 .f32 := Memref.whole cc0_scratch0
abbrev vAcc : View sig .tc .vmem S2048x64 .f32 := (mAcc).view
/-- One staging buffer of the output window, through which an output tile's contents are stated. -/
abbrev vOut : View sig .tc .vmem S2048x64 .f32 := (Memref.whole cc0_stg2_0 : Memref sig .tc .vmem S2048x64 .f32).view

/-! ## The scoped buffers the region does not stage -/

/-- The seven scoped buffers other than the accumulator, each whole at some contents: they ride through the region untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant, with the accumulator as a memref owned at some contents and the rest set apart. -/
theorem PhiA_eq (c : Dev nD) :
    (Pipeline.ΦA spec0 c : sProp 𝕄)
      = iprop(iprop((∃ d, owns (c : Thread nD τ) mAcc fullShare d) ∗ others (F := F) c) ∗ (∃ r, prngReg c r)) := by
  unfold Pipeline.ΦA others; rw [scopedRest0_eq]; simp only [mAcc, owns_whole]; try rfl

end Cert.Kernel.Pool0

end
-- ==== Proof.KR0RunA.lean ====
/-
  Pooling step 1, the case of a FIRST reduction tile (t % 8 = 0): the accumulator is reset to zero, then the tile product is added; the output tile is left untouched.
  The run is found by symbolic execution of the body over its skeleton; the pieces each buffer ends with are the
  witness, so nothing the body computes is transcribed here.
-/
import proofs.«112922_j28157805593353_1_alg».proof.Proof.KR0Shared

-- membership in a rectangle of 2048 rows: the structural look recurses once per coordinate of the long axes
set_option maxRecDepth 16384

noncomputable section

namespace Cert.Kernel.Pool0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- First reduction tile. From the two input tiles at `x0`, `x1`, the output tile at any `xi2` (handed back untouched) and the
    accumulator at anything, the body runs to its return leaving the accumulator with the pieces `LS` written. -/
noncomputable def runFirst (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) :
    Σ' (L2 : List (View.Piece (Elt F) S2048x64 .f32)), { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Pool0

end
-- ==== Proof.KR0RunB.lean ====
/-
  Pooling step 1, the case of a MIDDLE reduction tile (t % 8 is neither 0 nor 7): the tile product is added to what the point before left in the accumulator; the output tile is left untouched.
  The run is found by symbolic execution of the body over its skeleton; the pieces each buffer ends with are the
  witness, so nothing the body computes is transcribed here.
-/
import proofs.«112922_j28157805593353_1_alg».proof.Proof.KR0Shared

-- membership in a rectangle of 2048 rows: the structural look recurses once per coordinate of the long axes
set_option maxRecDepth 16384

noncomputable section

namespace Cert.Kernel.Pool0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle reduction tile. As the first-tile run, but the accumulator enters at the contents `xs` the point before left. -/
noncomputable def runMid (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) :
    Σ' (L2 : List (View.Piece (Elt F) S2048x64 .f32)), { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Pool0

end
-- ==== Proof.KR0RunC.lean ====
/-
  Pooling step 1, the case of a LAST reduction tile (t % 8 = 7): the tile product is added to the accumulator, and the accumulator is then copied into the output tile.
  The run is found by symbolic execution of the body over its skeleton; the pieces each buffer ends with are the
  witness, so nothing the body computes is transcribed here.
-/
import proofs.«112922_j28157805593353_1_alg».proof.Proof.KR0Shared

-- membership in a rectangle of 2048 rows: the structural look recurses once per coordinate of the long axes
set_option maxRecDepth 16384

noncomputable section

namespace Cert.Kernel.Pool0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last reduction tile. The accumulator enters at `xs`; the output tile enters at anything and ends with the pieces `L2` written. -/
noncomputable def runLast (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) :
    Σ' (L2 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Pool0

end
-- ==== Proof.KR0Body.lean ====
/-
  Pooling step 1: what the accumulator and the output tile hold after each point, the region's proof data, and the
  body obligation.

  After point t the accumulator holds: at a first reduction tile, the zero tile plus the tile product; otherwise what the
  point before left plus the tile product.  At a last reduction tile the output tile is a copy of that.  The region
  invariant names the accumulator's contents after every point, so the next point can add to them.
-/
import proofs.«112922_j28157805593353_1_alg».proof.Proof.KR0RunA
import proofs.«112922_j28157805593353_1_alg».proof.Proof.KR0RunB
import proofs.«112922_j28157805593353_1_alg».proof.Proof.KR0RunC

-- membership in a rectangle of 2048 rows: the structural look recurses once per coordinate of the long axes
set_option maxRecDepth 16384

noncomputable section

namespace Cert.Kernel.Pool0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First reduction tile: the accumulator afterwards (the run's pieces read back). -/
def accFirst (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) : Vec F S2048x64 .f32 :=
  vAcc.read (Elt F) (vAcc.writes (Elt F) vAcc.junk (runFirst c i arg2 harg2 arg3 harg3 arg4 harg4 arg5 harg5 hc0 hc1 x0 x1).2.1)
/-- Those pieces tile the accumulator. -/
theorem accFirst_cover (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) (y : S2048x64.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S2048x64.size (by sl_kernel_rfl) y

/-- Middle reduction tile: the accumulator afterwards, over what it held before (`xs`). -/
def accMid (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) : Vec F S2048x64 .f32 :=
  vAcc.read (Elt F) (vAcc.writes (Elt F) vAcc.junk (runMid c i arg2 harg2 arg3 harg3 arg4 harg4 arg5 harg5 hc0 hc1 x0 x1 xs).2.1)
theorem accMid_cover (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) (y : S2048x64.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S2048x64.size (by sl_kernel_rfl) y

/-- Last reduction tile: the accumulator afterwards, and the output tile. -/
def accLast (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) : Vec F S2048x64 .f32 :=
  vAcc.read (Elt F) (vAcc.writes (Elt F) vAcc.junk (runLast c i arg2 harg2 arg3 harg3 arg4 harg4 arg5 harg5 hc0 hc1 x0 x1 xs).2.1)
theorem accLast_cover (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) (y : S2048x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x64.size (by sl_kernel_rfl) y
def outLast (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) : Vec F S2048x64 .f32 :=
  vOut.read (Elt F) (vOut.writes (Elt F) vOut.junk (runLast c i arg2 harg2 arg3 harg3 arg4 harg4 arg5 harg5 hc0 hc1 x0 x1 xs).1)
theorem outLast_cover (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) (y : S2048x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x64.size (by sl_kernel_rfl) y

/-- Where nothing is stored into the output tile it is neither written back nor read at the next point: a placeholder. -/
def idleOut : Vec F S2048x64 .f32 := vOut.read (Elt F) vOut.junk

/-! ## The three cases at a point of the grid -/

abbrev accFirstAt (c : Dev nD) (t : Fin cfg0.N) (h0 : t.val % 8 = 0) (h1 : ¬t.val % 8 = 7) : Vec F S2048x64 .f32 :=
  accFirst c (grid0.coords t) (mAdj t) (hAdj t) (mFeat t) (hFeat t) (mOut t) (hOut t) mAcc (Memref.isWhole_whole _) ((isFirst_iff t).mpr h0) (fun h => h1 ((isLast_iff t).mp h)) (iblk V c 0 t) (iblk V c 1 t)
abbrev accMidAt (c : Dev nD) (t : Fin cfg0.N) (h0 : ¬t.val % 8 = 0) (h1 : ¬t.val % 8 = 7) (xs : Vec F S2048x64 .f32) : Vec F S2048x64 .f32 :=
  accMid c (grid0.coords t) (mAdj t) (hAdj t) (mFeat t) (hFeat t) (mOut t) (hOut t) mAcc (Memref.isWhole_whole _) (fun h => h0 ((isFirst_iff t).mp h)) (fun h => h1 ((isLast_iff t).mp h)) (iblk V c 0 t) (iblk V c 1 t) xs
abbrev accLastAt (c : Dev nD) (t : Fin cfg0.N) (h0 : ¬t.val % 8 = 0) (h1 : t.val % 8 = 7) (xs : Vec F S2048x64 .f32) : Vec F S2048x64 .f32 :=
  accLast c (grid0.coords t) (mAdj t) (hAdj t) (mFeat t) (hFeat t) (mOut t) (hOut t) mAcc (Memref.isWhole_whole _) (fun h => h0 ((isFirst_iff t).mp h)) ((isLast_iff t).mpr h1) (iblk V c 0 t) (iblk V c 1 t) xs
abbrev outLastAt (c : Dev nD) (t : Fin cfg0.N) (h0 : ¬t.val % 8 = 0) (h1 : t.val % 8 = 7) (xs : Vec F S2048x64 .f32) : Vec F S2048x64 .f32 :=
  outLast c (grid0.coords t) (mAdj t) (hAdj t) (mFeat t) (hFeat t) (mOut t) (hOut t) mAcc (Memref.isWhole_whole _) (fun h => h0 ((isFirst_iff t).mp h)) ((isLast_iff t).mpr h1) (iblk V c 0 t) (iblk V c 1 t) xs

/-! ## Point by point -/

/-- What the output tile's staging buffer and the accumulator hold after the body at position `n` (the pair: output
    tile, accumulator): the case `n % 8` selects, over what position `n - 1` left in the accumulator. -/
def outsAt (c : Dev nD) : (n : ℕ) → n < cfg0.N → Vec F S2048x64 .f32 × Vec F S2048x64 .f32
  | 0, hn => (idleOut, accFirstAt V c ⟨0, hn⟩ (Nat.zero_mod _) (by show ¬0 % 8 = 7; decide))
  | n + 1, hn =>
    if h0 : (n + 1) % 8 = 0 then
      if h1 : (n + 1) % 8 = 7 then False.elim (by omega)
      else (idleOut, accFirstAt V c ⟨n + 1, hn⟩ h0 h1)
    else
      if h1 : (n + 1) % 8 = 7 then
        (outLastAt V c ⟨n + 1, hn⟩ h0 h1 (outsAt c n (Nat.lt_of_succ_lt hn)).2, accLastAt V c ⟨n + 1, hn⟩ h0 h1 (outsAt c n (Nat.lt_of_succ_lt hn)).2)
      else
        (idleOut, accMidAt V c ⟨n + 1, hn⟩ h0 h1 (outsAt c n (Nat.lt_of_succ_lt hn)).2)

theorem outsAt_first (c : Dev nD) (t : Fin cfg0.N) (h0 : t.val % 8 = 0) (h1 : ¬t.val % 8 = 7) :
    outsAt V c t.val t.isLt = (idleOut, accFirstAt V c t h0 h1) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt V c t.val t.isLt = (idleOut, accMidAt V c t h0 h1 (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt V c t.val t.isLt = (outLastAt V c t h0 h1 (outsAt V c (t.val - 1) (Nat.lt_of_le_of_lt (Nat.sub_le _ _) t.isLt)).2, accLastAt V c t h0 h1 (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant (the accumulator at anything); afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) mAcc fullShare ((outsAt V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) mAcc fullShare ((outsAt V c n hn).2) ∗ others (F := F) c) ∗ (∃ r, prngReg c r)) := rfl
theorem PhiS_pos (c : Dev nD) (n : ℕ) (h : n ≤ cfg0.N) (hz : n ≠ 0) :
    PhiS V c n h = iprop(iprop(owns (c : Thread nD τ) mAcc fullShare ((outsAt V c (n - 1) (by omega)).2) ∗ others (F := F) c) ∗ (∃ r, prngReg c r)) := by
  cases n with
  | zero => exact absurd rfl hz
  | succ n => rfl

/-! ## The proof data -/

/-- The arrays as the region finds them; after the body each input's buffer at its tile and the output's at `outsAt`;
    the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = (outsAt V c t.val t.isLt).1 := by dsimp only [dat]
theorem before0 (c : Dev nD) (t : Fin cfg0.N) (d) : (dat V c).before 0 t d = iblk V c 0 t :=
  before_adj V (dat V c) (A_eq V c 0) (after0 V c) t d
theorem before1 (c : Dev nD) (t : Fin cfg0.N) (d) : (dat V c).before 1 t d = iblk V c 1 t :=
  before_feat V (dat V c) (A_eq V c 1) (after1 V c) t d

/-! ## The body obligation at a generic point -/

def bodyPre (c : Dev nD) (t : Fin cfg0.N) : sProp 𝕄 :=
  iprop((dat V c).Φ t.castSucc ∗ (dat V c).owesAt () t.castSucc
    ∗ (∃ d, owns (c : Thread nD τ) (mAdj t) fullShare ((dat V c).before 0 t d))
    ∗ (∃ d, owns (c : Thread nD τ) (mFeat t) fullShare ((dat V c).before 1 t d))
    ∗ (∃ d, owns (c : Thread nD τ) (mOut t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their tiles; `t % 8` says which case the point is in; the invariant hands
    the body the accumulator at what the point before left (at anything before the first point) and takes it back at
    this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [Dat.leavesExact_idle (dat V c) 2 t (idle_out t (fun h => h1 ((isLast_iff t).mp h))) (noFlush_out t (fun h => h1 ((isLast_iff t).mp h)))]
      rw [outsAt_first V c t h0 h1]
      unfold accFirstAt accFirst; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩⟩
        iapply ((runFirst c (grid0.coords t) _ _ _ _ _ _ _ _ ((isFirst_iff t).mpr h0) (fun h => h1 ((isLast_iff t).mp h)) (iblk V c 0 t) (iblk V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accFirst_cover c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS, Hoth⟩, Hg⟩, Ho, ⟨%d0, H0⟩, ⟨%d1, H1⟩, ⟨%d2, H2⟩⟩
        iapply ((runFirst c (grid0.coords t) _ _ _ _ _ _ _ _ ((isFirst_iff t).mpr h0) (fun h => h1 ((isLast_iff t).mp h)) (iblk V c 0 t) (iblk V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accFirst_cover c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 8 = 7
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [show (dat V c).leavesExact 2 t = owns (c : Thread nD τ) (mOut t) fullShare ((dat V c).after 2 t) from (by unfold Dat.leavesExact; rw [live_out t ((isLast_iff t).mpr h1)]), after2]
      rw [outsAt_last V c t h0 h1]
      unfold outLastAt accLastAt outLast accLast; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩⟩
        iapply ((runLast c (grid0.coords t) _ _ _ _ _ _ _ _ (fun h => h0 ((isFirst_iff t).mp h)) ((isLast_iff t).mpr h1) (iblk V c 0 t) (iblk V c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hoth Hg]
        · isplitl [HS Hoth]
          · isplitl [HS]
            · unfold owns; iexists _; isplitr
              swap; · iexact HS
              ipureintro; exact View.read_writes_of_cover _ _ _ _ _ (accLast_cover c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (outLast_cover c _ _ _ _ _ _ _ _ _ _ _ _ _ _)
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [Dat.leavesExact_idle (dat V c) 2 t (idle_out t (fun h => h1 ((isLast_iff t).mp h))) (noFlush_out t (fun h => h1 ((isLast_iff t).mp h)))]
      rw [outsAt_mid V c t h0 h1]
      unfold accMidAt accMid; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩⟩
        iapply ((runMid c (grid0.coords t) _ _ _ _ _ _ _ _ (fun h => h0 ((isFirst_iff t).mp h)) (fun h => h1 ((isLast_iff t).mp h)) (iblk V c 0 t) (iblk V c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accMid_cover c _ _ _ _ _ _ _ _ _ _ _ _ _ _)
            iexact Hoth
          iexact Hg
        isplitl [Ho]; · iexact Ho
        isplitl [H0]; · iexact H0
        isplitl [H1]; · iexact H1
        iexists _; iexact H2

/-- The body obligation, at every point. -/
theorem body_obligation (c : Dev nD) : BodyObligation (dat (F := F) V c) (defs₀ (F := F)) Variants.none () Set.univ := fun t => by
  rw [bigSep_W0, bigSep_W0]
  exact sound_body V c t

/-! ## Into and out of the invariant -/

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the accumulator's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem hout (c : Dev nD) : (dat V c).Φ (Fin.last cfg0.N) ⊢ Pipeline.ΦA spec0 c :=
  Phi_out V c _ (by rw [Fin.val_last]; have : cfg0.N = 64 := N_0; omega)

end Cert.Kernel.Pool0

end
-- ==== Proof.KR1Shared.lean ====
/-
  Pooling step 2 (the second adjacency product): what its three case runs and its proof data share.

  The grid has 8 x 8 points; point t has row tile t / 8 and reduction tile t % 8.  At a point the body sees the
  2048 x 2048 tile (t / 8, t % 8) of the adjacency matrix, the 2048 x 64 tile (t % 8) of the features, and the
  2048 x 64 output tile (t / 8).  The accumulator scratch is reset where t % 8 = 0 and copied to the output tile
  where t % 8 = 7; the output tile is written back to its array only at those last points.
-/
import proofs.«112922_j28157805593353_1_alg».proof.Proof.Gen.Kernel.Launch
import proofs.«112922_j28157805593353_1_alg».proof.Proof.Gen.Kernel.Skeleton
import proofs.«112922_j28157805593353_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the structural look recurses once per coordinate of the long axes
set_option maxRecDepth 16384

noncomputable section

namespace Cert.Kernel.Pool1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement here is made at this parameter
variable (V : (c : Dev nD) → (b : Ref sig .tc) → Buf (Elt F) ((c : Thread nD τ).loc b))

/-! ## The tiles -/

/-- Window `w`'s tile at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds the point's tile whenever the body starts: it is fetched at every
    point and the body never stores into it. -/
theorem before_adj {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the feature window. -/
theorem before_feat {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the 64 points -/

/-- "This is the first reduction tile": the condition under which the accumulator is reset. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- "This is the last reduction tile": the condition under which the accumulator is copied to the output tile. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are live -/

theorem live_adj : ∀ t : Fin cfg1.N, cfg1.idle 0 (grid1.coords t) = false := by decide +kernel
theorem live_feat : ∀ t : Fin cfg1.N, cfg1.idle 1 (grid1.coords t) = false := by decide +kernel
/-- Away from the last reduction tile nothing is stored into the output tile, and it is not written back. -/
theorem idle_out : ∀ t : Fin cfg1.N, ¬isLast (grid1.coords t) → cfg1.idle 2 (grid1.coords t) = true := by decide +kernel
theorem noFlush_out : ∀ t : Fin cfg1.N, ¬isLast (grid1.coords t) → (cfg1.win 2).flush t = false := by decide +kernel
/-- At the last reduction tile the output tile is stored whole. -/
theorem live_out : ∀ t : Fin cfg1.N, isLast (grid1.coords t) → cfg1.idle 2 (grid1.coords t) = false := by decide +kernel

/-! ## The memrefs the body is called with -/

abbrev mAdj (t : Fin cfg1.N) : Memref sig .tc .vmem S2048x2048 .f32 := win1_0.stage (cfg1.slots t 0)
abbrev hAdj (t : Fin cfg1.N) : (mAdj t).IsWhole := hstage1_0 ((cfg1.slots t 0).cast nbuf1_0)
abbrev mFeat (t : Fin cfg1.N) : Memref sig .tc .vmem S2048x64 .f32 := win1_1.stage (cfg1.slots t 1)
abbrev hFeat (t : Fin cfg1.N) : (mFeat t).IsWhole := hstage1_1 ((cfg1.slots t 1).cast nbuf1_1)
abbrev mOut (t : Fin cfg1.N) : Memref sig .tc .vmem S2048x64 .f32 := win1_2.stage (cfg1.slots t 2)
abbrev hOut (t : Fin cfg1.N) : (mOut t).IsWhole := hstage1_2 ((cfg1.slots t 2).cast nbuf1_2)
/-- The accumulator: a whole scoped buffer of the kernel's own. -/
abbrev mAcc : Memref sig .tc .vmem S2048x64 .f32 := Memref.whole cc1_scratch0
abbrev vAcc : View sig .tc .vmem S2048x64 .f32 := (mAcc).view
/-- One staging buffer of the output window, through which an output tile's contents are stated. -/
abbrev vOut : View sig .tc .vmem S2048x64 .f32 := (Memref.whole cc1_stg2_0 : Memref sig .tc .vmem S2048x64 .f32).view

/-! ## The scoped buffers the region does not stage -/

/-- The seven scoped buffers other than the accumulator, each whole at some contents: they ride through the region untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant, with the accumulator as a memref owned at some contents and the rest set apart (here the
    accumulator is the last of the eight scoped buffers: the two sides differ by the order of a separating conjunction). -/
theorem PhiA_eq (c : Dev nD) :
    (Pipeline.ΦA spec1 c : sProp 𝕄)
      = iprop(iprop((∃ d, owns (c : Thread nD τ) mAcc fullShare d) ∗ others (F := F) c) ∗ (∃ r, prngReg c r)) := by
  unfold Pipeline.ΦA others; rw [scopedRest1_eq]; simp only [mAcc, owns_whole]
  refine Entails.antisymm ?_ ?_
  · show (_ : sProp 𝕄) ⊢ _
    iintro ⟨⟨A1, A2, A3, A4, A5, A6, A7, A8⟩, Hg⟩
    isplitr [Hg]
    · isplitl [A8]; · iexact A8
      isplitl [A1]; · iexact A1
      isplitl [A2]; · iexact A2
      isplitl [A3]; · iexact A3
      isplitl [A4]; · iexact A4
      isplitl [A5]; · iexact A5
      isplitl [A6]; · iexact A6
      iexact A7
    · iexact Hg
  · show (_ : sProp 𝕄) ⊢ _
    iintro ⟨⟨A8, A1, A2, A3, A4, A5, A6, A7⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      iexact A8
    · iexact Hg

end Cert.Kernel.Pool1

end
-- ==== Proof.KR1RunA.lean ====
/-
  Pooling step 2, the case of a FIRST reduction tile (t % 8 = 0): the accumulator is reset to zero, then the tile product is added; the output tile is left untouched.
  The run is found by symbolic execution of the body over its skeleton; the pieces each buffer ends with are the
  witness, so nothing the body computes is transcribed here.
-/
import proofs.«112922_j28157805593353_1_alg».proof.Proof.KR1Shared

-- membership in a rectangle of 2048 rows: the structural look recurses once per coordinate of the long axes
set_option maxRecDepth 16384

noncomputable section

namespace Cert.Kernel.Pool1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- First reduction tile. From the two input tiles at `x0`, `x1`, the output tile at any `xi2` (handed back untouched) and the
    accumulator at anything, the body runs to its return leaving the accumulator with the pieces `LS` written. -/
noncomputable def runFirst (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) :
    Σ' (L2 : List (View.Piece (Elt F) S2048x64 .f32)), { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__pool_kernel i arg2 harg2 arg3 harg3 arg4 harg4 arg5 harg5) K } := by
  refine ⟨[], ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Pool1

end
-- ==== Proof.KR1RunB.lean ====
/-
  Pooling step 2, the case of a MIDDLE reduction tile (t % 8 is neither 0 nor 7): the tile product is added to what the point before left in the accumulator; the output tile is left untouched.
  The run is found by symbolic execution of the body over its skeleton; the pieces each buffer ends with are the
  witness, so nothing the body computes is transcribed here.
-/
import proofs.«112922_j28157805593353_1_alg».proof.Proof.KR1Shared

-- membership in a rectangle of 2048 rows: the structural look recurses once per coordinate of the long axes
set_option maxRecDepth 16384

noncomputable section

namespace Cert.Kernel.Pool1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle reduction tile. As the first-tile run, but the accumulator enters at the contents `xs` the point before left. -/
noncomputable def runMid (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) :
    Σ' (L2 : List (View.Piece (Elt F) S2048x64 .f32)), { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__pool_kernel i arg2 harg2 arg3 harg3 arg4 harg4 arg5 harg5) K } := by
  refine ⟨[], ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Pool1

end
-- ==== Proof.KR1RunC.lean ====
/-
  Pooling step 2, the case of a LAST reduction tile (t % 8 = 7): the tile product is added to the accumulator, and the accumulator is then copied into the output tile.
  The run is found by symbolic execution of the body over its skeleton; the pieces each buffer ends with are the
  witness, so nothing the body computes is transcribed here.
-/
import proofs.«112922_j28157805593353_1_alg».proof.Proof.KR1Shared

-- membership in a rectangle of 2048 rows: the structural look recurses once per coordinate of the long axes
set_option maxRecDepth 16384

noncomputable section

namespace Cert.Kernel.Pool1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last reduction tile. The accumulator enters at `xs`; the output tile enters at anything and ends with the pieces `L2` written. -/
noncomputable def runLast (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) :
    Σ' (L2 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__pool_kernel i arg2 harg2 arg3 harg3 arg4 harg4 arg5 harg5) K } := by
  refine ⟨?_, ?_, fun E K => ?run⟩
  case run =>
    simp only [cc1__pool_kernel_eq_skeleton]; unfold cc1__pool_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Pool1

end
-- ==== Proof.KR1Body.lean ====
/-
  Pooling step 2: what the accumulator and the output tile hold after each point, the region's proof data, and the
  body obligation.

  After point t the accumulator holds: at a first reduction tile, the zero tile plus the tile product; otherwise what the
  point before left plus the tile product.  At a last reduction tile the output tile is a copy of that.  The region
  invariant names the accumulator's contents after every point, so the next point can add to them.
-/
import proofs.«112922_j28157805593353_1_alg».proof.Proof.KR1RunA
import proofs.«112922_j28157805593353_1_alg».proof.Proof.KR1RunB
import proofs.«112922_j28157805593353_1_alg».proof.Proof.KR1RunC

-- membership in a rectangle of 2048 rows: the structural look recurses once per coordinate of the long axes
set_option maxRecDepth 16384

noncomputable section

namespace Cert.Kernel.Pool1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First reduction tile: the accumulator afterwards (the run's pieces read back). -/
def accFirst (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) : Vec F S2048x64 .f32 :=
  vAcc.read (Elt F) (vAcc.writes (Elt F) vAcc.junk (runFirst c i arg2 harg2 arg3 harg3 arg4 harg4 arg5 harg5 hc0 hc1 x0 x1).2.1)
/-- Those pieces tile the accumulator. -/
theorem accFirst_cover (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) (y : S2048x64.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S2048x64.size (by sl_kernel_rfl) y

/-- Middle reduction tile: the accumulator afterwards, over what it held before (`xs`). -/
def accMid (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) : Vec F S2048x64 .f32 :=
  vAcc.read (Elt F) (vAcc.writes (Elt F) vAcc.junk (runMid c i arg2 harg2 arg3 harg3 arg4 harg4 arg5 harg5 hc0 hc1 x0 x1 xs).2.1)
theorem accMid_cover (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) (y : S2048x64.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S2048x64.size (by sl_kernel_rfl) y

/-- Last reduction tile: the accumulator afterwards, and the output tile. -/
def accLast (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) : Vec F S2048x64 .f32 :=
  vAcc.read (Elt F) (vAcc.writes (Elt F) vAcc.junk (runLast c i arg2 harg2 arg3 harg3 arg4 harg4 arg5 harg5 hc0 hc1 x0 x1 xs).2.1)
theorem accLast_cover (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) (y : S2048x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x64.size (by sl_kernel_rfl) y
def outLast (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) : Vec F S2048x64 .f32 :=
  vOut.read (Elt F) (vOut.writes (Elt F) vOut.junk (runLast c i arg2 harg2 arg3 harg3 arg4 harg4 arg5 harg5 hc0 hc1 x0 x1 xs).1)
theorem outLast_cover (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) (y : S2048x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x64.size (by sl_kernel_rfl) y

/-- Where nothing is stored into the output tile it is neither written back nor read at the next point: a placeholder. -/
def idleOut : Vec F S2048x64 .f32 := vOut.read (Elt F) vOut.junk

/-! ## The three cases at a point of the grid -/

abbrev accFirstAt (c : Dev nD) (t : Fin cfg1.N) (h0 : t.val % 8 = 0) (h1 : ¬t.val % 8 = 7) : Vec F S2048x64 .f32 :=
  accFirst c (grid1.coords t) (mAdj t) (hAdj t) (mFeat t) (hFeat t) (mOut t) (hOut t) mAcc (Memref.isWhole_whole _) ((isFirst_iff t).mpr h0) (fun h => h1 ((isLast_iff t).mp h)) (iblk V c 0 t) (iblk V c 1 t)
abbrev accMidAt (c : Dev nD) (t : Fin cfg1.N) (h0 : ¬t.val % 8 = 0) (h1 : ¬t.val % 8 = 7) (xs : Vec F S2048x64 .f32) : Vec F S2048x64 .f32 :=
  accMid c (grid1.coords t) (mAdj t) (hAdj t) (mFeat t) (hFeat t) (mOut t) (hOut t) mAcc (Memref.isWhole_whole _) (fun h => h0 ((isFirst_iff t).mp h)) (fun h => h1 ((isLast_iff t).mp h)) (iblk V c 0 t) (iblk V c 1 t) xs
abbrev accLastAt (c : Dev nD) (t : Fin cfg1.N) (h0 : ¬t.val % 8 = 0) (h1 : t.val % 8 = 7) (xs : Vec F S2048x64 .f32) : Vec F S2048x64 .f32 :=
  accLast c (grid1.coords t) (mAdj t) (hAdj t) (mFeat t) (hFeat t) (mOut t) (hOut t) mAcc (Memref.isWhole_whole _) (fun h => h0 ((isFirst_iff t).mp h)) ((isLast_iff t).mpr h1) (iblk V c 0 t) (iblk V c 1 t) xs
abbrev outLastAt (c : Dev nD) (t : Fin cfg1.N) (h0 : ¬t.val % 8 = 0) (h1 : t.val % 8 = 7) (xs : Vec F S2048x64 .f32) : Vec F S2048x64 .f32 :=
  outLast c (grid1.coords t) (mAdj t) (hAdj t) (mFeat t) (hFeat t) (mOut t) (hOut t) mAcc (Memref.isWhole_whole _) (fun h => h0 ((isFirst_iff t).mp h)) ((isLast_iff t).mpr h1) (iblk V c 0 t) (iblk V c 1 t) xs

/-! ## Point by point -/

/-- What the output tile's staging buffer and the accumulator hold after the body at position `n` (the pair: output
    tile, accumulator): the case `n % 8` selects, over what position `n - 1` left in the accumulator. -/
def outsAt (c : Dev nD) : (n : ℕ) → n < cfg1.N → Vec F S2048x64 .f32 × Vec F S2048x64 .f32
  | 0, hn => (idleOut, accFirstAt V c ⟨0, hn⟩ (Nat.zero_mod _) (by show ¬0 % 8 = 7; decide))
  | n + 1, hn =>
    if h0 : (n + 1) % 8 = 0 then
      if h1 : (n + 1) % 8 = 7 then False.elim (by omega)
      else (idleOut, accFirstAt V c ⟨n + 1, hn⟩ h0 h1)
    else
      if h1 : (n + 1) % 8 = 7 then
        (outLastAt V c ⟨n + 1, hn⟩ h0 h1 (outsAt c n (Nat.lt_of_succ_lt hn)).2, accLastAt V c ⟨n + 1, hn⟩ h0 h1 (outsAt c n (Nat.lt_of_succ_lt hn)).2)
      else
        (idleOut, accMidAt V c ⟨n + 1, hn⟩ h0 h1 (outsAt c n (Nat.lt_of_succ_lt hn)).2)

theorem outsAt_first (c : Dev nD) (t : Fin cfg1.N) (h0 : t.val % 8 = 0) (h1 : ¬t.val % 8 = 7) :
    outsAt V c t.val t.isLt = (idleOut, accFirstAt V c t h0 h1) := by
  obtain ⟨n, hn⟩ := t
  cases n with
  | zero => exact rfl
  | succ n => exact (dif_pos h0).trans ((dif_neg h1).trans rfl)

theorem outsAt_mid (c : Dev nD) (t : Fin cfg1.N) (h0 : ¬t.val % 8 = 0) (h1 : ¬t.val % 8 = 7) :
    outsAt V c t.val t.isLt = (idleOut, accMidAt V c t h0 h1 (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 8 = 0) (h1 : t.val % 8 = 7) :
    outsAt V c t.val t.isLt = (outLastAt V c t h0 h1 (outsAt V c (t.val - 1) (Nat.lt_of_le_of_lt (Nat.sub_le _ _) t.isLt)).2, accLastAt V c t h0 h1 (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant (the accumulator at anything); afterwards the
    accumulator at what the point before left, the other scoped buffers at anything, the generator register at some state. -/
def PhiS (c : Dev nD) : (n : ℕ) → n ≤ cfg1.N → sProp 𝕄
  | 0, _ => Pipeline.ΦA spec1 c
  | n + 1, hn => iprop(iprop(owns (c : Thread nD τ) mAcc fullShare ((outsAt V c n hn).2) ∗ others (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) mAcc fullShare ((outsAt V c n hn).2) ∗ others (F := F) c) ∗ (∃ r, prngReg c r)) := rfl
theorem PhiS_pos (c : Dev nD) (n : ℕ) (h : n ≤ cfg1.N) (hz : n ≠ 0) :
    PhiS V c n h = iprop(iprop(owns (c : Thread nD τ) mAcc fullShare ((outsAt V c (n - 1) (by omega)).2) ∗ others (F := F) c) ∗ (∃ r, prngReg c r)) := by
  cases n with
  | zero => exact absurd rfl hz
  | succ n => rfl

/-! ## The proof data -/

/-- The arrays as the region finds them; after the body each input's buffer at its tile and the output's at `outsAt`;
    the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = (outsAt V c t.val t.isLt).1 := by dsimp only [dat]
theorem before0 (c : Dev nD) (t : Fin cfg1.N) (d) : (dat V c).before 0 t d = iblk V c 0 t :=
  before_adj V (dat V c) (A_eq V c 0) (after0 V c) t d
theorem before1 (c : Dev nD) (t : Fin cfg1.N) (d) : (dat V c).before 1 t d = iblk V c 1 t :=
  before_feat V (dat V c) (A_eq V c 1) (after1 V c) t d

/-! ## The body obligation at a generic point -/

def bodyPre (c : Dev nD) (t : Fin cfg1.N) : sProp 𝕄 :=
  iprop((dat V c).Φ t.castSucc ∗ (dat V c).owesAt () t.castSucc
    ∗ (∃ d, owns (c : Thread nD τ) (mAdj t) fullShare ((dat V c).before 0 t d))
    ∗ (∃ d, owns (c : Thread nD τ) (mFeat t) fullShare ((dat V c).before 1 t d))
    ∗ (∃ d, owns (c : Thread nD τ) (mOut t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their tiles; `t % 8` says which case the point is in; the invariant hands
    the body the accumulator at what the point before left (at anything before the first point) and takes it back at
    this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [Dat.leavesExact_idle (dat V c) 2 t (idle_out t (fun h => h1 ((isLast_iff t).mp h))) (noFlush_out t (fun h => h1 ((isLast_iff t).mp h)))]
      rw [outsAt_first V c t h0 h1]
      unfold accFirstAt accFirst; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩⟩
        iapply ((runFirst c (grid1.coords t) _ _ _ _ _ _ _ _ ((isFirst_iff t).mpr h0) (fun h => h1 ((isLast_iff t).mp h)) (iblk V c 0 t) (iblk V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accFirst_cover c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS, Hoth⟩, Hg⟩, Ho, ⟨%d0, H0⟩, ⟨%d1, H1⟩, ⟨%d2, H2⟩⟩
        iapply ((runFirst c (grid1.coords t) _ _ _ _ _ _ _ _ ((isFirst_iff t).mpr h0) (fun h => h1 ((isLast_iff t).mp h)) (iblk V c 0 t) (iblk V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accFirst_cover c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 8 = 7
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [show (dat V c).leavesExact 2 t = owns (c : Thread nD τ) (mOut t) fullShare ((dat V c).after 2 t) from (by unfold Dat.leavesExact; rw [live_out t ((isLast_iff t).mpr h1)]), after2]
      rw [outsAt_last V c t h0 h1]
      unfold outLastAt accLastAt outLast accLast; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩⟩
        iapply ((runLast c (grid1.coords t) _ _ _ _ _ _ _ _ (fun h => h0 ((isFirst_iff t).mp h)) ((isLast_iff t).mpr h1) (iblk V c 0 t) (iblk V c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hoth Hg]
        · isplitl [HS Hoth]
          · isplitl [HS]
            · unfold owns; iexists _; isplitr
              swap; · iexact HS
              ipureintro; exact View.read_writes_of_cover _ _ _ _ _ (accLast_cover c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (outLast_cover c _ _ _ _ _ _ _ _ _ _ _ _ _ _)
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [Dat.leavesExact_idle (dat V c) 2 t (idle_out t (fun h => h1 ((isLast_iff t).mp h))) (noFlush_out t (fun h => h1 ((isLast_iff t).mp h)))]
      rw [outsAt_mid V c t h0 h1]
      unfold accMidAt accMid; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩⟩
        iapply ((runMid c (grid1.coords t) _ _ _ _ _ _ _ _ (fun h => h0 ((isFirst_iff t).mp h)) (fun h => h1 ((isLast_iff t).mp h)) (iblk V c 0 t) (iblk V c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accMid_cover c _ _ _ _ _ _ _ _ _ _ _ _ _ _)
            iexact Hoth
          iexact Hg
        isplitl [Ho]; · iexact Ho
        isplitl [H0]; · iexact H0
        isplitl [H1]; · iexact H1
        iexists _; iexact H2

/-- The body obligation, at every point. -/
theorem body_obligation (c : Dev nD) : BodyObligation (dat (F := F) V c) (defs₀ (F := F)) Variants.none () Set.univ := fun t => by
  rw [bigSep_W1, bigSep_W1]
  exact sound_body V c t

/-! ## Into and out of the invariant -/

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the accumulator's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem hout (c : Dev nD) : (dat V c).Φ (Fin.last cfg1.N) ⊢ Pipeline.ΦA spec1 c :=
  Phi_out V c _ (by rw [Fin.val_last]; have : cfg1.N = 64 := N_1; omega)

end Cert.Kernel.Pool1

end
-- ==== Proof.KRun.lean ====
/-
  The whole program as seven items in order — two stretches of host operations, pooling step 1, two more stretches,
  pooling step 2, the closing stretch — and its run: every weakly fair execution terminates without a fault, and at the
  end every unscoped buffer holds what the items leave in it, computed as a fold from the launch memory.  A host
  stretch applies its operations; a pooling step replaces its output array by what its write-backs leave and keeps
  every other buffer.  Both the claim that the arguments end unchanged and the value of the result are read off this
  last valuation.
-/
import proofs.«112922_j28157805593353_1_alg».proof.Proof.KR0Body
import proofs.«112922_j28157805593353_1_alg».proof.Proof.KR1Body

-- membership in a rectangle of 2048 rows: the structural look recurses once per coordinate of the long axes
set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- At launch. -/
abbrev W0 : Dev nD → Valuation τ sig (Elt F) := fun c b => m (c, b)
/-- After the first host stretch (index wrap, gather, first dense layer up to the bias). -/
abbrev W1 : Dev nD → Valuation τ sig (Elt F) := fun c => StableHlo.after hostOps0 (W0 m c)
/-- After the first rectifier: pooling step 1's entry. -/
abbrev W2 : Dev nD → Valuation τ sig (Elt F) := fun c => StableHlo.after hostOps0_1 (W1 m c)
/-- The same read at the TensorCore's references. -/
abbrev VA : (c : Dev nD) → (b : Ref sig .tc) → Buf (Elt F) ((c : Thread nD τ).loc b) := fun c b => W2 m c b
/-- At pooling step 1's exit: its arrays at what the pipeline leaves, every other buffer as entered. -/
def W3 (c : Dev nD) : Valuation τ sig (Elt F) :=
  Pipeline.withArrays spec0 c (W2 m c) fun w => (Pool0.dat (VA m) c).arrAt w cfg0.N
theorem W3_arr (c : Dev nD) (w : Fin cfg0.W) :
    W3 m c (Proc.devRef .tc (Pipeline.arrRef spec0 w)) = (Pool0.dat (VA m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev VAx : (c : Dev nD) → (b : Ref sig .tc) → Buf (Elt F) ((c : Thread nD τ).loc b) := fun c b => W3 m c b
theorem hF0 (c : Dev nD) (w : Fin cfg0.W) : (Pool0.dat (VA m) c).arrAt w cfg0.N = VAx m c (Pipeline.arrRef spec0 w) :=
  (W3_arr m c w).symm
theorem hrest0 (c : Dev nD) : ∀ b, b ∉ Finset.univ.image (Pipeline.arrRef spec0) → VAx m c b = VA m c b :=
  fun b hb => W3_of_ne m c b fun w e => hb (Finset.mem_image.mpr ⟨w, Finset.mem_univ _, e⟩)

/-- After the second dense layer up to the bias. -/
abbrev W4 : Dev nD → Valuation τ sig (Elt F) := fun c => StableHlo.after hostOps1 (W3 m c)
/-- After the second rectifier: pooling step 2's entry. -/
abbrev W5 : Dev nD → Valuation τ sig (Elt F) := fun c => StableHlo.after hostOps1_1 (W4 m c)
abbrev VB : (c : Dev nD) → (b : Ref sig .tc) → Buf (Elt F) ((c : Thread nD τ).loc b) := fun c b => W5 m c b
/-- At pooling step 2's exit. -/
def W6 (c : Dev nD) : Valuation τ sig (Elt F) :=
  Pipeline.withArrays spec1 c (W5 m c) fun w => (Pool1.dat (VB m) c).arrAt w cfg1.N
theorem W6_arr (c : Dev nD) (w : Fin cfg1.W) :
    W6 m c (Proc.devRef .tc (Pipeline.arrRef spec1 w)) = (Pool1.dat (VB m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VBx : (c : Dev nD) → (b : Ref sig .tc) → Buf (Elt F) ((c : Thread nD τ).loc b) := fun c b => W6 m c b
theorem hF1 (c : Dev nD) (w : Fin cfg1.W) : (Pool1.dat (VB m) c).arrAt w cfg1.N = VBx m c (Pipeline.arrRef spec1 w) :=
  (W6_arr m c w).symm
theorem hrest1 (c : Dev nD) : ∀ b, b ∉ Finset.univ.image (Pipeline.arrRef spec1) → VBx m c b = VB m c b :=
  fun b hb => W6_of_ne m c b fun w e => hb (Finset.mem_image.mpr ⟨w, Finset.mem_univ _, e⟩)

/-- After the closing stretch (the sum over the rows): the end. -/
abbrev W7 : Dev nD → Valuation τ sig (Elt F) := fun c => StableHlo.after hostOps2 (W6 m c)

/-! ## The proof data family and what rides beside the buffers -/

/-- No pooling step reads a prefetched table. -/
abbrev tabs : (p : Fin 2) → (pcfgs (F := F) p).Adm := fun p => (cfgs p).toPCfg_adm
/-- Each pooling step's proof data at its own entry contents: a literal match on the step. -/
def pdats : (p : Fin 2) → (c : Dev nD) → Dat τ (Elt F) Unit ℕ (UR sig nD τ) ℕ (Pipeline.pin (pcfgs (F := F)) tabs p) c
  | ⟨0, _⟩ => fun c => Pool0.dat (VA m) c
  | ⟨1, _⟩ => fun c => Pool1.dat (VB m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The two pooling steps as segments -/

-- a library lemma stated over the pinned configuration unifies with the printed one only when unification may unfold plain
-- definitions in a metavariable's type
set_option backward.isDefEq.respectTransparency.types false in
/-- Pooling step 1 as a segment: entered with every unscoped buffer at `W2`, left at `W3`. Its three arrays are split
    out of the unscoped buffers and put back at the exit contents; the generator register goes into the region invariant and
    comes back; nothing is owed; the kernel has no semaphore of its own. -/
def reg0 : Pipeline.RegionSeg (pcfgs (F := F)) tabs (pdats m) () defs₀ 𝒱₀ L lv 0 where
  win := launch0.win.to₀
  block_pos := launch0.block_pos
  stage_whole := launch0.stage_whole
  K := PEmpty
  osem k := k.elim
  ho := Pipeline.OwnSemFacts.none _
  hbody c := (Pool0.body_obligation (VA m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄) ⊢ (pdats m 0 c).Φ 0 := Pool0.hin (VA m) c
    iintro ⟨Hp, -, Hr⟩
    iapply h
    isplitl [Hr]; · iexact Hr
    iexact Hp
  hout c := by
    rw [Pipeline.ownSems0_none]
    have h : (pdats m 0 c).Φ (Fin.last (Pipeline.pin (pcfgs (F := F)) tabs 0).N) ⊢ (iprop(Pipeline.scopedRest (Ix := Unit) (Name := ℕ) (U := UR sig nD τ) (Lvl := ℕ) (Val := Elt F) spec0 c ∗ ∃ r, prngReg c r) : sProp 𝕄) := Pool0.hout (VA m) c
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (VA m c) (VAx m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pooling step 2 as a segment: entered with every unscoped buffer at `W5`, left at `W6`. Its three arrays are split
    out of the unscoped buffers and put back at the exit contents; the generator register goes into the region invariant and
    comes back; nothing is owed; the kernel has no semaphore of its own. -/
def reg1 : Pipeline.RegionSeg (pcfgs (F := F)) tabs (pdats m) () defs₀ 𝒱₀ L lv 1 where
  win := launch1.win.to₀
  block_pos := launch1.block_pos
  stage_whole := launch1.stage_whole
  K := PEmpty
  osem k := k.elim
  ho := Pipeline.OwnSemFacts.none _
  hbody c := (Pool1.body_obligation (VB m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄) ⊢ (pdats m 1 c).Φ 0 := Pool1.hin (VB m) c
    iintro ⟨Hp, -, Hr⟩
    iapply h
    isplitl [Hr]; · iexact Hr
    iexact Hp
  hout c := by
    rw [Pipeline.ownSems0_none]
    have h : (pdats m 1 c).Φ (Fin.last (Pipeline.pin (pcfgs (F := F)) tabs 1).N) ⊢ (iprop(Pipeline.scopedRest (Ix := Unit) (Name := ℕ) (U := UR sig nD τ) (Lvl := ℕ) (Val := Elt F) spec1 c ∗ ∃ r, prngReg c r) : sProp 𝕄) := Pool1.hout (VB m) c
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (VB m c) (VBx m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The seven items in order. -/
abbrev segs : List (Pipeline.Seg (pcfgs (F := F)) tabs (pdats m) () defs₀ 𝒱₀ L lv) :=
  [ .host (hseg hostOps0 hostOps0_sub fresh0 (W0 m)),
    .host (hseg hostOps0_1 hostOps0_1_sub fresh0_1 (W1 m)),
    .region (reg0 m),
    .host (hseg hostOps1 hostOps1_sub fresh1 (W3 m)),
    .host (hseg hostOps1_1 hostOps1_1_sub fresh1_1 (W4 m)),
    .region (reg1 m),
    .host (hseg hostOps2 hostOps2_sub fresh2 (W6 m)) ]

-- the launch theorem's implicit arguments are found by unifying its conclusion with this one, which takes unfolding plain
-- definitions in a metavariable's type
set_option backward.isDefEq.respectTransparency.types false in
/-- THE RUN. From any memory with zero counters every weakly fair execution of the program terminates, nothing
    faulting, and every final state has every unscoped buffer at the last valuation `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) := by
  refine Pipeline.θ_run_regions_kit_dev (pcfgs (F := F)) tabs (pdats m) () cellOf_inj emb₁ defs₀ 𝒱₀ L lv m ρ main
    (fun _ => segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl,
      (show (iprop(StableHlo.held (c : Thread nD τ) (Pipeline.ucRefs τ sig) (W7 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.Kernel.Pool

end
-- ==== Proof.KEnds.lean ====
/-
  What the program's buffers hold at the end, read off the last valuation.  A buffer that no host operation writes and
  that is no array of either pooling step ends as launched; the adjacency matrix is an input array of both pooling
  steps, and an input array leaves a pooling step as it entered.  So the seven arguments end unchanged, and the result
  buffer ends at the closing row sum applied to what pooling step 2 leaves.
-/
import proofs.«112922_j28157805593353_1_alg».proof.Proof.KRun
import proofs.«112922_j28157805593353_1_alg».proof.Proof.Gen.Kernel.Regions

-- membership in a rectangle of 2048 rows: the structural look recurses once per coordinate of the long axes
set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no item writes ends as launched. -/
theorem W7_keep (c : Dev nD) (r : Ref sig .tc)
    (h0 : r ∉ hostOps0_W) (h01 : r ∉ hostOps0_1_W) (hA : ∀ w, Pipeline.arrRef spec0 w ≠ r)
    (h1 : r ∉ hostOps1_W) (h11 : r ∉ hostOps1_1_W) (hB : ∀ w, Pipeline.arrRef spec1 w ≠ r) (h2 : r ∉ hostOps2_W) :
    W7 m c r = m ((c : Thread nD τ).loc r) :=
  calc W7 m c r = W6 m c r := StableHlo.after_of_writes_sub hostOps2 _ hostOps2_writes h2
    _ = W5 m c r := W6_of_ne m c r hB
    _ = W4 m c r := StableHlo.after_of_writes_sub hostOps1_1 _ hostOps1_1_writes h11
    _ = W3 m c r := StableHlo.after_of_writes_sub hostOps1 _ hostOps1_writes h1
    _ = W2 m c r := W3_of_ne m c r hA
    _ = W1 m c r := StableHlo.after_of_writes_sub hostOps0_1 _ hostOps0_1_writes h01
    _ = W0 m c r := StableHlo.after_of_writes_sub hostOps0 _ hostOps0_writes h0
    _ = m ((c : Thread nD τ).loc r) := rfl

/-- The adjacency matrix at pooling step 2's entry is the launch contents: pooling step 1 hands its input arrays back. -/
theorem VB_adj (c : Dev nD) : VB m c main_arg1 = m ((c : Thread nD τ).loc main_arg1) :=
  calc VB m c main_arg1 = W4 m c main_arg1 := StableHlo.after_of_writes_sub hostOps1_1 _ hostOps1_1_writes (by decide)
    _ = W3 m c main_arg1 := StableHlo.after_of_writes_sub hostOps1 _ hostOps1_writes (by decide)
    _ = (Pool0.dat (VA m) c).arrAt 0 cfg0.N := W3_arr m c 0
    _ = VA m c main_arg1 := ((Pool0.dat (VA m) c).arrAt_in 0 rfl _).trans (Pool0.A_eq (VA m) c 0)
    _ = W1 m c main_arg1 := StableHlo.after_of_writes_sub hostOps0_1 _ hostOps0_1_writes (by decide)
    _ = W0 m c main_arg1 := StableHlo.after_of_writes_sub hostOps0 _ hostOps0_writes (by decide)
    _ = m ((c : Thread nD τ).loc main_arg1) := rfl

/-- And it ends as launched. -/
theorem W7_adj (c : Dev nD) : W7 m c main_arg1 = m ((c : Thread nD τ).loc main_arg1) :=
  calc W7 m c main_arg1 = W6 m c main_arg1 := StableHlo.after_of_writes_sub hostOps2 _ hostOps2_writes (by decide)
    _ = (Pool1.dat (VB m) c).arrAt 0 cfg1.N := W6_arr m c 0
    _ = VB m c main_arg1 := ((Pool1.dat (VB m) c).arrAt_in 0 rfl _).trans (Pool1.A_eq (VB m) c 0)
    _ = m ((c : Thread nD τ).loc main_arg1) := VB_adj m c

/-- THE RUN, READ: the result buffer at the last valuation, the seven arguments unchanged. -/
theorem run_ends : θ_run defs (onTc (τ := τ) (main (F := F))) ⟨m, fun _ => 0, ρ⟩ (fun r => ∀ c : Dev nD,
      r.2.mem ((c.tc : Thread nD τ).loc main_v19) = W7 m c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v19 (by decide)),
    (h c _ (mem_uc main_arg0 (by decide))).trans (W7_keep m c main_arg0 (by decide) (by decide) (by decide) (by decide) (by decide) (by decide) (by decide)),
    (h c _ (mem_uc main_arg1 (by decide))).trans (W7_adj m c),
    (h c _ (mem_uc main_arg2 (by decide))).trans (W7_keep m c main_arg2 (by decide) (by decide) (by decide) (by decide) (by decide) (by decide) (by decide)),
    (h c _ (mem_uc main_arg3 (by decide))).trans (W7_keep m c main_arg3 (by decide) (by decide) (by decide) (by decide) (by decide) (by decide) (by decide)),
    (h c _ (mem_uc main_arg4 (by decide))).trans (W7_keep m c main_arg4 (by decide) (by decide) (by decide) (by decide) (by decide) (by decide) (by decide)),
    (h c _ (mem_uc main_arg5 (by decide))).trans (W7_keep m c main_arg5 (by decide) (by decide) (by decide) (by decide) (by decide) (by decide) (by decide)),
    (h c _ (mem_uc main_arg6 (by decide))).trans (W7_keep m c main_arg6 (by decide) (by decide) (by decide) (by decide) (by decide) (by decide) (by decide))⟩) (run_all m ρ)

/-- THE FRAME: every weakly fair execution terminates, nothing faulting, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_ends m ρ)

end Cert.Kernel.Pool

end
-- ==== Proof.R0Shared.lean ====
/-
  Pooling step 1 (the first adjacency product): what its three case runs and its proof data share.

  The grid has 8 x 8 points; point t has row tile t / 8 and reduction tile t % 8.  At a point the body sees the
  2048 x 2048 tile (t / 8, t % 8) of the adjacency matrix, the 2048 x 64 tile (t % 8) of the features, and the
  2048 x 64 output tile (t / 8).  The accumulator scratch is reset where t % 8 = 0 and copied to the output tile
  where t % 8 = 7; the output tile is written back to its array only at those last points.
-/
import proofs.«112922_j28157805593353_1_alg».proof.Proof.Gen.KernelIdeal.Launch
import proofs.«112922_j28157805593353_1_alg».proof.Proof.Gen.KernelIdeal.Skeleton
import proofs.«112922_j28157805593353_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the structural look recurses once per coordinate of the long axes
set_option maxRecDepth 16384

noncomputable section

namespace Cert.KernelIdeal.Pool0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement here is made at this parameter
variable (V : (c : Dev nD) → (b : Ref sig .tc) → Buf (Elt F) ((c : Thread nD τ).loc b))

/-! ## The tiles -/

/-- Window `w`'s tile at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds the point's tile whenever the body starts: it is fetched at every
    point and the body never stores into it. -/
theorem before_adj {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the feature window. -/
theorem before_feat {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the 64 points -/

/-- "This is the first reduction tile": the condition under which the accumulator is reset. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last reduction tile": the condition under which the accumulator is copied to the output tile. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are live -/

theorem live_adj : ∀ t : Fin cfg0.N, cfg0.idle 0 (grid0.coords t) = false := by decide +kernel
theorem live_feat : ∀ t : Fin cfg0.N, cfg0.idle 1 (grid0.coords t) = false := by decide +kernel
/-- Away from the last reduction tile nothing is stored into the output tile, and it is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At the last reduction tile the output tile is stored whole. -/
theorem live_out : ∀ t : Fin cfg0.N, isLast (grid0.coords t) → cfg0.idle 2 (grid0.coords t) = false := by decide +kernel

/-! ## The memrefs the body is called with -/

abbrev mAdj (t : Fin cfg0.N) : Memref sig .tc .vmem S2048x2048 .f32 := win0_0.stage (cfg0.slots t 0)
abbrev hAdj (t : Fin cfg0.N) : (mAdj t).IsWhole := hstage0_0 ((cfg0.slots t 0).cast nbuf0_0)
abbrev mFeat (t : Fin cfg0.N) : Memref sig .tc .vmem S2048x64 .f32 := win0_1.stage (cfg0.slots t 1)
abbrev hFeat (t : Fin cfg0.N) : (mFeat t).IsWhole := hstage0_1 ((cfg0.slots t 1).cast nbuf0_1)
abbrev mOut (t : Fin cfg0.N) : Memref sig .tc .vmem S2048x64 .f32 := win0_2.stage (cfg0.slots t 2)
abbrev hOut (t : Fin cfg0.N) : (mOut t).IsWhole := hstage0_2 ((cfg0.slots t 2).cast nbuf0_2)
/-- The accumulator: a whole scoped buffer of the kernel's own. -/
abbrev mAcc : Memref sig .tc .vmem S2048x64 .f32 := Memref.whole cc0_scratch0
abbrev vAcc : View sig .tc .vmem S2048x64 .f32 := (mAcc).view
/-- One staging buffer of the output window, through which an output tile's contents are stated. -/
abbrev vOut : View sig .tc .vmem S2048x64 .f32 := (Memref.whole cc0_stg2_0 : Memref sig .tc .vmem S2048x64 .f32).view

/-! ## The scoped buffers the region does not stage -/

/-- The seven scoped buffers other than the accumulator, each whole at some contents: they ride through the region untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant, with the accumulator as a memref owned at some contents and the rest set apart. -/
theorem PhiA_eq (c : Dev nD) :
    (Pipeline.ΦA spec0 c : sProp 𝕄)
      = iprop(iprop((∃ d, owns (c : Thread nD τ) mAcc fullShare d) ∗ others (F := F) c) ∗ (∃ r, prngReg c r)) := by
  unfold Pipeline.ΦA others; rw [scopedRest0_eq]; simp only [mAcc, owns_whole]; try rfl

end Cert.KernelIdeal.Pool0

end
-- ==== Proof.R0RunA.lean ====
/-
  Pooling step 1, the case of a FIRST reduction tile (t % 8 = 0): the accumulator is reset to zero, then the tile product is added; the output tile is left untouched.
  The run is found by symbolic execution of the body over its skeleton; the pieces each buffer ends with are the
  witness, so nothing the body computes is transcribed here.
-/
import proofs.«112922_j28157805593353_1_alg».proof.Proof.R0Shared

-- membership in a rectangle of 2048 rows: the structural look recurses once per coordinate of the long axes
set_option maxRecDepth 16384

noncomputable section

namespace Cert.KernelIdeal.Pool0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- First reduction tile. From the two input tiles at `x0`, `x1`, the output tile at any `xi2` (handed back untouched) and the
    accumulator at anything, the body runs to its return leaving the accumulator with the pieces `LS` written. -/
noncomputable def runFirst (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) :
    Σ' (L2 : List (View.Piece (Elt F) S2048x64 .f32)), { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Pool0

end
-- ==== Proof.R0RunB.lean ====
/-
  Pooling step 1, the case of a MIDDLE reduction tile (t % 8 is neither 0 nor 7): the tile product is added to what the point before left in the accumulator; the output tile is left untouched.
  The run is found by symbolic execution of the body over its skeleton; the pieces each buffer ends with are the
  witness, so nothing the body computes is transcribed here.
-/
import proofs.«112922_j28157805593353_1_alg».proof.Proof.R0Shared

-- membership in a rectangle of 2048 rows: the structural look recurses once per coordinate of the long axes
set_option maxRecDepth 16384

noncomputable section

namespace Cert.KernelIdeal.Pool0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle reduction tile. As the first-tile run, but the accumulator enters at the contents `xs` the point before left. -/
noncomputable def runMid (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) :
    Σ' (L2 : List (View.Piece (Elt F) S2048x64 .f32)), { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Pool0

end
-- ==== Proof.R0RunC.lean ====
/-
  Pooling step 1, the case of a LAST reduction tile (t % 8 = 7): the tile product is added to the accumulator, and the accumulator is then copied into the output tile.
  The run is found by symbolic execution of the body over its skeleton; the pieces each buffer ends with are the
  witness, so nothing the body computes is transcribed here.
-/
import proofs.«112922_j28157805593353_1_alg».proof.Proof.R0Shared

-- membership in a rectangle of 2048 rows: the structural look recurses once per coordinate of the long axes
set_option maxRecDepth 16384

noncomputable section

namespace Cert.KernelIdeal.Pool0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last reduction tile. The accumulator enters at `xs`; the output tile enters at anything and ends with the pieces `L2` written. -/
noncomputable def runLast (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) :
    Σ' (L2 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Pool0

end
-- ==== Proof.R0Body.lean ====
/-
  Pooling step 1: what the accumulator and the output tile hold after each point, the region's proof data, and the
  body obligation.

  After point t the accumulator holds: at a first reduction tile, the zero tile plus the tile product; otherwise what the
  point before left plus the tile product.  At a last reduction tile the output tile is a copy of that.  The region
  invariant names the accumulator's contents after every point, so the next point can add to them.
-/
import proofs.«112922_j28157805593353_1_alg».proof.Proof.R0RunA
import proofs.«112922_j28157805593353_1_alg».proof.Proof.R0RunB
import proofs.«112922_j28157805593353_1_alg».proof.Proof.R0RunC

-- membership in a rectangle of 2048 rows: the structural look recurses once per coordinate of the long axes
set_option maxRecDepth 16384

noncomputable section

namespace Cert.KernelIdeal.Pool0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First reduction tile: the accumulator afterwards (the run's pieces read back). -/
def accFirst (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) : Vec F S2048x64 .f32 :=
  vAcc.read (Elt F) (vAcc.writes (Elt F) vAcc.junk (runFirst c i arg2 harg2 arg3 harg3 arg4 harg4 arg5 harg5 hc0 hc1 x0 x1).2.1)
/-- Those pieces tile the accumulator. -/
theorem accFirst_cover (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) (y : S2048x64.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S2048x64.size (by sl_kernel_rfl) y

/-- Middle reduction tile: the accumulator afterwards, over what it held before (`xs`). -/
def accMid (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) : Vec F S2048x64 .f32 :=
  vAcc.read (Elt F) (vAcc.writes (Elt F) vAcc.junk (runMid c i arg2 harg2 arg3 harg3 arg4 harg4 arg5 harg5 hc0 hc1 x0 x1 xs).2.1)
theorem accMid_cover (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) (y : S2048x64.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S2048x64.size (by sl_kernel_rfl) y

/-- Last reduction tile: the accumulator afterwards, and the output tile. -/
def accLast (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) : Vec F S2048x64 .f32 :=
  vAcc.read (Elt F) (vAcc.writes (Elt F) vAcc.junk (runLast c i arg2 harg2 arg3 harg3 arg4 harg4 arg5 harg5 hc0 hc1 x0 x1 xs).2.1)
theorem accLast_cover (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) (y : S2048x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x64.size (by sl_kernel_rfl) y
def outLast (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) : Vec F S2048x64 .f32 :=
  vOut.read (Elt F) (vOut.writes (Elt F) vOut.junk (runLast c i arg2 harg2 arg3 harg3 arg4 harg4 arg5 harg5 hc0 hc1 x0 x1 xs).1)
theorem outLast_cover (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) (y : S2048x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x64.size (by sl_kernel_rfl) y

/-- Where nothing is stored into the output tile it is neither written back nor read at the next point: a placeholder. -/
def idleOut : Vec F S2048x64 .f32 := vOut.read (Elt F) vOut.junk

/-! ## The three cases at a point of the grid -/

abbrev accFirstAt (c : Dev nD) (t : Fin cfg0.N) (h0 : t.val % 8 = 0) (h1 : ¬t.val % 8 = 7) : Vec F S2048x64 .f32 :=
  accFirst c (grid0.coords t) (mAdj t) (hAdj t) (mFeat t) (hFeat t) (mOut t) (hOut t) mAcc (Memref.isWhole_whole _) ((isFirst_iff t).mpr h0) (fun h => h1 ((isLast_iff t).mp h)) (iblk V c 0 t) (iblk V c 1 t)
abbrev accMidAt (c : Dev nD) (t : Fin cfg0.N) (h0 : ¬t.val % 8 = 0) (h1 : ¬t.val % 8 = 7) (xs : Vec F S2048x64 .f32) : Vec F S2048x64 .f32 :=
  accMid c (grid0.coords t) (mAdj t) (hAdj t) (mFeat t) (hFeat t) (mOut t) (hOut t) mAcc (Memref.isWhole_whole _) (fun h => h0 ((isFirst_iff t).mp h)) (fun h => h1 ((isLast_iff t).mp h)) (iblk V c 0 t) (iblk V c 1 t) xs
abbrev accLastAt (c : Dev nD) (t : Fin cfg0.N) (h0 : ¬t.val % 8 = 0) (h1 : t.val % 8 = 7) (xs : Vec F S2048x64 .f32) : Vec F S2048x64 .f32 :=
  accLast c (grid0.coords t) (mAdj t) (hAdj t) (mFeat t) (hFeat t) (mOut t) (hOut t) mAcc (Memref.isWhole_whole _) (fun h => h0 ((isFirst_iff t).mp h)) ((isLast_iff t).mpr h1) (iblk V c 0 t) (iblk V c 1 t) xs
abbrev outLastAt (c : Dev nD) (t : Fin cfg0.N) (h0 : ¬t.val % 8 = 0) (h1 : t.val % 8 = 7) (xs : Vec F S2048x64 .f32) : Vec F S2048x64 .f32 :=
  outLast c (grid0.coords t) (mAdj t) (hAdj t) (mFeat t) (hFeat t) (mOut t) (hOut t) mAcc (Memref.isWhole_whole _) (fun h => h0 ((isFirst_iff t).mp h)) ((isLast_iff t).mpr h1) (iblk V c 0 t) (iblk V c 1 t) xs

/-! ## Point by point -/

/-- What the output tile's staging buffer and the accumulator hold after the body at position `n` (the pair: output
    tile, accumulator): the case `n % 8` selects, over what position `n - 1` left in the accumulator. -/
def outsAt (c : Dev nD) : (n : ℕ) → n < cfg0.N → Vec F S2048x64 .f32 × Vec F S2048x64 .f32
  | 0, hn => (idleOut, accFirstAt V c ⟨0, hn⟩ (Nat.zero_mod _) (by show ¬0 % 8 = 7; decide))
  | n + 1, hn =>
    if h0 : (n + 1) % 8 = 0 then
      if h1 : (n + 1) % 8 = 7 then False.elim (by omega)
      else (idleOut, accFirstAt V c ⟨n + 1, hn⟩ h0 h1)
    else
      if h1 : (n + 1) % 8 = 7 then
        (outLastAt V c ⟨n + 1, hn⟩ h0 h1 (outsAt c n (Nat.lt_of_succ_lt hn)).2, accLastAt V c ⟨n + 1, hn⟩ h0 h1 (outsAt c n (Nat.lt_of_succ_lt hn)).2)
      else
        (idleOut, accMidAt V c ⟨n + 1, hn⟩ h0 h1 (outsAt c n (Nat.lt_of_succ_lt hn)).2)

theorem outsAt_first (c : Dev nD) (t : Fin cfg0.N) (h0 : t.val % 8 = 0) (h1 : ¬t.val % 8 = 7) :
    outsAt V c t.val t.isLt = (idleOut, accFirstAt V c t h0 h1) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt V c t.val t.isLt = (idleOut, accMidAt V c t h0 h1 (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt V c t.val t.isLt = (outLastAt V c t h0 h1 (outsAt V c (t.val - 1) (Nat.lt_of_le_of_lt (Nat.sub_le _ _) t.isLt)).2, accLastAt V c t h0 h1 (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant (the accumulator at anything); afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) mAcc fullShare ((outsAt V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) mAcc fullShare ((outsAt V c n hn).2) ∗ others (F := F) c) ∗ (∃ r, prngReg c r)) := rfl
theorem PhiS_pos (c : Dev nD) (n : ℕ) (h : n ≤ cfg0.N) (hz : n ≠ 0) :
    PhiS V c n h = iprop(iprop(owns (c : Thread nD τ) mAcc fullShare ((outsAt V c (n - 1) (by omega)).2) ∗ others (F := F) c) ∗ (∃ r, prngReg c r)) := by
  cases n with
  | zero => exact absurd rfl hz
  | succ n => rfl

/-! ## The proof data -/

/-- The arrays as the region finds them; after the body each input's buffer at its tile and the output's at `outsAt`;
    the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = (outsAt V c t.val t.isLt).1 := by dsimp only [dat]
theorem before0 (c : Dev nD) (t : Fin cfg0.N) (d) : (dat V c).before 0 t d = iblk V c 0 t :=
  before_adj V (dat V c) (A_eq V c 0) (after0 V c) t d
theorem before1 (c : Dev nD) (t : Fin cfg0.N) (d) : (dat V c).before 1 t d = iblk V c 1 t :=
  before_feat V (dat V c) (A_eq V c 1) (after1 V c) t d

/-! ## The body obligation at a generic point -/

def bodyPre (c : Dev nD) (t : Fin cfg0.N) : sProp 𝕄 :=
  iprop((dat V c).Φ t.castSucc ∗ (dat V c).owesAt () t.castSucc
    ∗ (∃ d, owns (c : Thread nD τ) (mAdj t) fullShare ((dat V c).before 0 t d))
    ∗ (∃ d, owns (c : Thread nD τ) (mFeat t) fullShare ((dat V c).before 1 t d))
    ∗ (∃ d, owns (c : Thread nD τ) (mOut t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their tiles; `t % 8` says which case the point is in; the invariant hands
    the body the accumulator at what the point before left (at anything before the first point) and takes it back at
    this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [Dat.leavesExact_idle (dat V c) 2 t (idle_out t (fun h => h1 ((isLast_iff t).mp h))) (noFlush_out t (fun h => h1 ((isLast_iff t).mp h)))]
      rw [outsAt_first V c t h0 h1]
      unfold accFirstAt accFirst; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩⟩
        iapply ((runFirst c (grid0.coords t) _ _ _ _ _ _ _ _ ((isFirst_iff t).mpr h0) (fun h => h1 ((isLast_iff t).mp h)) (iblk V c 0 t) (iblk V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accFirst_cover c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS, Hoth⟩, Hg⟩, Ho, ⟨%d0, H0⟩, ⟨%d1, H1⟩, ⟨%d2, H2⟩⟩
        iapply ((runFirst c (grid0.coords t) _ _ _ _ _ _ _ _ ((isFirst_iff t).mpr h0) (fun h => h1 ((isLast_iff t).mp h)) (iblk V c 0 t) (iblk V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accFirst_cover c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 8 = 7
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [show (dat V c).leavesExact 2 t = owns (c : Thread nD τ) (mOut t) fullShare ((dat V c).after 2 t) from (by unfold Dat.leavesExact; rw [live_out t ((isLast_iff t).mpr h1)]), after2]
      rw [outsAt_last V c t h0 h1]
      unfold outLastAt accLastAt outLast accLast; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩⟩
        iapply ((runLast c (grid0.coords t) _ _ _ _ _ _ _ _ (fun h => h0 ((isFirst_iff t).mp h)) ((isLast_iff t).mpr h1) (iblk V c 0 t) (iblk V c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hoth Hg]
        · isplitl [HS Hoth]
          · isplitl [HS]
            · unfold owns; iexists _; isplitr
              swap; · iexact HS
              ipureintro; exact View.read_writes_of_cover _ _ _ _ _ (accLast_cover c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (outLast_cover c _ _ _ _ _ _ _ _ _ _ _ _ _ _)
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [Dat.leavesExact_idle (dat V c) 2 t (idle_out t (fun h => h1 ((isLast_iff t).mp h))) (noFlush_out t (fun h => h1 ((isLast_iff t).mp h)))]
      rw [outsAt_mid V c t h0 h1]
      unfold accMidAt accMid; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩⟩
        iapply ((runMid c (grid0.coords t) _ _ _ _ _ _ _ _ (fun h => h0 ((isFirst_iff t).mp h)) (fun h => h1 ((isLast_iff t).mp h)) (iblk V c 0 t) (iblk V c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accMid_cover c _ _ _ _ _ _ _ _ _ _ _ _ _ _)
            iexact Hoth
          iexact Hg
        isplitl [Ho]; · iexact Ho
        isplitl [H0]; · iexact H0
        isplitl [H1]; · iexact H1
        iexists _; iexact H2

/-- The body obligation, at every point. -/
theorem body_obligation (c : Dev nD) : BodyObligation (dat (F := F) V c) (defs₀ (F := F)) Variants.none () Set.univ := fun t => by
  rw [bigSep_W0, bigSep_W0]
  exact sound_body V c t

/-! ## Into and out of the invariant -/

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the accumulator's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem hout (c : Dev nD) : (dat V c).Φ (Fin.last cfg0.N) ⊢ Pipeline.ΦA spec0 c :=
  Phi_out V c _ (by rw [Fin.val_last]; have : cfg0.N = 64 := N_0; omega)

end Cert.KernelIdeal.Pool0

end
-- ==== Proof.R1Shared.lean ====
/-
  Pooling step 2 (the second adjacency product): what its three case runs and its proof data share.

  The grid has 8 x 8 points; point t has row tile t / 8 and reduction tile t % 8.  At a point the body sees the
  2048 x 2048 tile (t / 8, t % 8) of the adjacency matrix, the 2048 x 64 tile (t % 8) of the features, and the
  2048 x 64 output tile (t / 8).  The accumulator scratch is reset where t % 8 = 0 and copied to the output tile
  where t % 8 = 7; the output tile is written back to its array only at those last points.
-/
import proofs.«112922_j28157805593353_1_alg».proof.Proof.Gen.KernelIdeal.Launch
import proofs.«112922_j28157805593353_1_alg».proof.Proof.Gen.KernelIdeal.Skeleton
import proofs.«112922_j28157805593353_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the structural look recurses once per coordinate of the long axes
set_option maxRecDepth 16384

noncomputable section

namespace Cert.KernelIdeal.Pool1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement here is made at this parameter
variable (V : (c : Dev nD) → (b : Ref sig .tc) → Buf (Elt F) ((c : Thread nD τ).loc b))

/-! ## The tiles -/

/-- Window `w`'s tile at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds the point's tile whenever the body starts: it is fetched at every
    point and the body never stores into it. -/
theorem before_adj {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the feature window. -/
theorem before_feat {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the 64 points -/

/-- "This is the first reduction tile": the condition under which the accumulator is reset. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- "This is the last reduction tile": the condition under which the accumulator is copied to the output tile. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are live -/

theorem live_adj : ∀ t : Fin cfg1.N, cfg1.idle 0 (grid1.coords t) = false := by decide +kernel
theorem live_feat : ∀ t : Fin cfg1.N, cfg1.idle 1 (grid1.coords t) = false := by decide +kernel
/-- Away from the last reduction tile nothing is stored into the output tile, and it is not written back. -/
theorem idle_out : ∀ t : Fin cfg1.N, ¬isLast (grid1.coords t) → cfg1.idle 2 (grid1.coords t) = true := by decide +kernel
theorem noFlush_out : ∀ t : Fin cfg1.N, ¬isLast (grid1.coords t) → (cfg1.win 2).flush t = false := by decide +kernel
/-- At the last reduction tile the output tile is stored whole. -/
theorem live_out : ∀ t : Fin cfg1.N, isLast (grid1.coords t) → cfg1.idle 2 (grid1.coords t) = false := by decide +kernel

/-! ## The memrefs the body is called with -/

abbrev mAdj (t : Fin cfg1.N) : Memref sig .tc .vmem S2048x2048 .f32 := win1_0.stage (cfg1.slots t 0)
abbrev hAdj (t : Fin cfg1.N) : (mAdj t).IsWhole := hstage1_0 ((cfg1.slots t 0).cast nbuf1_0)
abbrev mFeat (t : Fin cfg1.N) : Memref sig .tc .vmem S2048x64 .f32 := win1_1.stage (cfg1.slots t 1)
abbrev hFeat (t : Fin cfg1.N) : (mFeat t).IsWhole := hstage1_1 ((cfg1.slots t 1).cast nbuf1_1)
abbrev mOut (t : Fin cfg1.N) : Memref sig .tc .vmem S2048x64 .f32 := win1_2.stage (cfg1.slots t 2)
abbrev hOut (t : Fin cfg1.N) : (mOut t).IsWhole := hstage1_2 ((cfg1.slots t 2).cast nbuf1_2)
/-- The accumulator: a whole scoped buffer of the kernel's own. -/
abbrev mAcc : Memref sig .tc .vmem S2048x64 .f32 := Memref.whole cc1_scratch0
abbrev vAcc : View sig .tc .vmem S2048x64 .f32 := (mAcc).view
/-- One staging buffer of the output window, through which an output tile's contents are stated. -/
abbrev vOut : View sig .tc .vmem S2048x64 .f32 := (Memref.whole cc1_stg2_0 : Memref sig .tc .vmem S2048x64 .f32).view

/-! ## The scoped buffers the region does not stage -/

/-- The seven scoped buffers other than the accumulator, each whole at some contents: they ride through the region untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant, with the accumulator as a memref owned at some contents and the rest set apart (here the
    accumulator is the last of the eight scoped buffers: the two sides differ by the order of a separating conjunction). -/
theorem PhiA_eq (c : Dev nD) :
    (Pipeline.ΦA spec1 c : sProp 𝕄)
      = iprop(iprop((∃ d, owns (c : Thread nD τ) mAcc fullShare d) ∗ others (F := F) c) ∗ (∃ r, prngReg c r)) := by
  unfold Pipeline.ΦA others; rw [scopedRest1_eq]; simp only [mAcc, owns_whole]
  refine Entails.antisymm ?_ ?_
  · show (_ : sProp 𝕄) ⊢ _
    iintro ⟨⟨A1, A2, A3, A4, A5, A6, A7, A8⟩, Hg⟩
    isplitr [Hg]
    · isplitl [A8]; · iexact A8
      isplitl [A1]; · iexact A1
      isplitl [A2]; · iexact A2
      isplitl [A3]; · iexact A3
      isplitl [A4]; · iexact A4
      isplitl [A5]; · iexact A5
      isplitl [A6]; · iexact A6
      iexact A7
    · iexact Hg
  · show (_ : sProp 𝕄) ⊢ _
    iintro ⟨⟨A8, A1, A2, A3, A4, A5, A6, A7⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      iexact A8
    · iexact Hg

end Cert.KernelIdeal.Pool1

end
-- ==== Proof.R1RunA.lean ====
/-
  Pooling step 2, the case of a FIRST reduction tile (t % 8 = 0): the accumulator is reset to zero, then the tile product is added; the output tile is left untouched.
  The run is found by symbolic execution of the body over its skeleton; the pieces each buffer ends with are the
  witness, so nothing the body computes is transcribed here.
-/
import proofs.«112922_j28157805593353_1_alg».proof.Proof.R1Shared

-- membership in a rectangle of 2048 rows: the structural look recurses once per coordinate of the long axes
set_option maxRecDepth 16384

noncomputable section

namespace Cert.KernelIdeal.Pool1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- First reduction tile. From the two input tiles at `x0`, `x1`, the output tile at any `xi2` (handed back untouched) and the
    accumulator at anything, the body runs to its return leaving the accumulator with the pieces `LS` written. -/
noncomputable def runFirst (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) :
    Σ' (L2 : List (View.Piece (Elt F) S2048x64 .f32)), { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__pool_kernel i arg2 harg2 arg3 harg3 arg4 harg4 arg5 harg5) K } := by
  refine ⟨[], ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Pool1

end
-- ==== Proof.R1RunB.lean ====
/-
  Pooling step 2, the case of a MIDDLE reduction tile (t % 8 is neither 0 nor 7): the tile product is added to what the point before left in the accumulator; the output tile is left untouched.
  The run is found by symbolic execution of the body over its skeleton; the pieces each buffer ends with are the
  witness, so nothing the body computes is transcribed here.
-/
import proofs.«112922_j28157805593353_1_alg».proof.Proof.R1Shared

-- membership in a rectangle of 2048 rows: the structural look recurses once per coordinate of the long axes
set_option maxRecDepth 16384

noncomputable section

namespace Cert.KernelIdeal.Pool1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle reduction tile. As the first-tile run, but the accumulator enters at the contents `xs` the point before left. -/
noncomputable def runMid (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) :
    Σ' (L2 : List (View.Piece (Elt F) S2048x64 .f32)), { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__pool_kernel i arg2 harg2 arg3 harg3 arg4 harg4 arg5 harg5) K } := by
  refine ⟨[], ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Pool1

end
-- ==== Proof.R1RunC.lean ====
/-
  Pooling step 2, the case of a LAST reduction tile (t % 8 = 7): the tile product is added to the accumulator, and the accumulator is then copied into the output tile.
  The run is found by symbolic execution of the body over its skeleton; the pieces each buffer ends with are the
  witness, so nothing the body computes is transcribed here.
-/
import proofs.«112922_j28157805593353_1_alg».proof.Proof.R1Shared

-- membership in a rectangle of 2048 rows: the structural look recurses once per coordinate of the long axes
set_option maxRecDepth 16384

noncomputable section

namespace Cert.KernelIdeal.Pool1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last reduction tile. The accumulator enters at `xs`; the output tile enters at anything and ends with the pieces `L2` written. -/
noncomputable def runLast (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) :
    Σ' (L2 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__pool_kernel i arg2 harg2 arg3 harg3 arg4 harg4 arg5 harg5) K } := by
  refine ⟨?_, ?_, fun E K => ?run⟩
  case run =>
    simp only [cc1__pool_kernel_eq_skeleton]; unfold cc1__pool_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Pool1

end
-- ==== Proof.R1Body.lean ====
/-
  Pooling step 2: what the accumulator and the output tile hold after each point, the region's proof data, and the
  body obligation.

  After point t the accumulator holds: at a first reduction tile, the zero tile plus the tile product; otherwise what the
  point before left plus the tile product.  At a last reduction tile the output tile is a copy of that.  The region
  invariant names the accumulator's contents after every point, so the next point can add to them.
-/
import proofs.«112922_j28157805593353_1_alg».proof.Proof.R1RunA
import proofs.«112922_j28157805593353_1_alg».proof.Proof.R1RunB
import proofs.«112922_j28157805593353_1_alg».proof.Proof.R1RunC

-- membership in a rectangle of 2048 rows: the structural look recurses once per coordinate of the long axes
set_option maxRecDepth 16384

noncomputable section

namespace Cert.KernelIdeal.Pool1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First reduction tile: the accumulator afterwards (the run's pieces read back). -/
def accFirst (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) : Vec F S2048x64 .f32 :=
  vAcc.read (Elt F) (vAcc.writes (Elt F) vAcc.junk (runFirst c i arg2 harg2 arg3 harg3 arg4 harg4 arg5 harg5 hc0 hc1 x0 x1).2.1)
/-- Those pieces tile the accumulator. -/
theorem accFirst_cover (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) (y : S2048x64.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S2048x64.size (by sl_kernel_rfl) y

/-- Middle reduction tile: the accumulator afterwards, over what it held before (`xs`). -/
def accMid (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) : Vec F S2048x64 .f32 :=
  vAcc.read (Elt F) (vAcc.writes (Elt F) vAcc.junk (runMid c i arg2 harg2 arg3 harg3 arg4 harg4 arg5 harg5 hc0 hc1 x0 x1 xs).2.1)
theorem accMid_cover (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) (y : S2048x64.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S2048x64.size (by sl_kernel_rfl) y

/-- Last reduction tile: the accumulator afterwards, and the output tile. -/
def accLast (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) : Vec F S2048x64 .f32 :=
  vAcc.read (Elt F) (vAcc.writes (Elt F) vAcc.junk (runLast c i arg2 harg2 arg3 harg3 arg4 harg4 arg5 harg5 hc0 hc1 x0 x1 xs).2.1)
theorem accLast_cover (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) (y : S2048x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x64.size (by sl_kernel_rfl) y
def outLast (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) : Vec F S2048x64 .f32 :=
  vOut.read (Elt F) (vOut.writes (Elt F) vOut.junk (runLast c i arg2 harg2 arg3 harg3 arg4 harg4 arg5 harg5 hc0 hc1 x0 x1 xs).1)
theorem outLast_cover (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) (y : S2048x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x64.size (by sl_kernel_rfl) y

/-- Where nothing is stored into the output tile it is neither written back nor read at the next point: a placeholder. -/
def idleOut : Vec F S2048x64 .f32 := vOut.read (Elt F) vOut.junk

/-! ## The three cases at a point of the grid -/

abbrev accFirstAt (c : Dev nD) (t : Fin cfg1.N) (h0 : t.val % 8 = 0) (h1 : ¬t.val % 8 = 7) : Vec F S2048x64 .f32 :=
  accFirst c (grid1.coords t) (mAdj t) (hAdj t) (mFeat t) (hFeat t) (mOut t) (hOut t) mAcc (Memref.isWhole_whole _) ((isFirst_iff t).mpr h0) (fun h => h1 ((isLast_iff t).mp h)) (iblk V c 0 t) (iblk V c 1 t)
abbrev accMidAt (c : Dev nD) (t : Fin cfg1.N) (h0 : ¬t.val % 8 = 0) (h1 : ¬t.val % 8 = 7) (xs : Vec F S2048x64 .f32) : Vec F S2048x64 .f32 :=
  accMid c (grid1.coords t) (mAdj t) (hAdj t) (mFeat t) (hFeat t) (mOut t) (hOut t) mAcc (Memref.isWhole_whole _) (fun h => h0 ((isFirst_iff t).mp h)) (fun h => h1 ((isLast_iff t).mp h)) (iblk V c 0 t) (iblk V c 1 t) xs
abbrev accLastAt (c : Dev nD) (t : Fin cfg1.N) (h0 : ¬t.val % 8 = 0) (h1 : t.val % 8 = 7) (xs : Vec F S2048x64 .f32) : Vec F S2048x64 .f32 :=
  accLast c (grid1.coords t) (mAdj t) (hAdj t) (mFeat t) (hFeat t) (mOut t) (hOut t) mAcc (Memref.isWhole_whole _) (fun h => h0 ((isFirst_iff t).mp h)) ((isLast_iff t).mpr h1) (iblk V c 0 t) (iblk V c 1 t) xs
abbrev outLastAt (c : Dev nD) (t : Fin cfg1.N) (h0 : ¬t.val % 8 = 0) (h1 : t.val % 8 = 7) (xs : Vec F S2048x64 .f32) : Vec F S2048x64 .f32 :=
  outLast c (grid1.coords t) (mAdj t) (hAdj t) (mFeat t) (hFeat t) (mOut t) (hOut t) mAcc (Memref.isWhole_whole _) (fun h => h0 ((isFirst_iff t).mp h)) ((isLast_iff t).mpr h1) (iblk V c 0 t) (iblk V c 1 t) xs

/-! ## Point by point -/

/-- What the output tile's staging buffer and the accumulator hold after the body at position `n` (the pair: output
    tile, accumulator): the case `n % 8` selects, over what position `n - 1` left in the accumulator. -/
def outsAt (c : Dev nD) : (n : ℕ) → n < cfg1.N → Vec F S2048x64 .f32 × Vec F S2048x64 .f32
  | 0, hn => (idleOut, accFirstAt V c ⟨0, hn⟩ (Nat.zero_mod _) (by show ¬0 % 8 = 7; decide))
  | n + 1, hn =>
    if h0 : (n + 1) % 8 = 0 then
      if h1 : (n + 1) % 8 = 7 then False.elim (by omega)
      else (idleOut, accFirstAt V c ⟨n + 1, hn⟩ h0 h1)
    else
      if h1 : (n + 1) % 8 = 7 then
        (outLastAt V c ⟨n + 1, hn⟩ h0 h1 (outsAt c n (Nat.lt_of_succ_lt hn)).2, accLastAt V c ⟨n + 1, hn⟩ h0 h1 (outsAt c n (Nat.lt_of_succ_lt hn)).2)
      else
        (idleOut, accMidAt V c ⟨n + 1, hn⟩ h0 h1 (outsAt c n (Nat.lt_of_succ_lt hn)).2)

theorem outsAt_first (c : Dev nD) (t : Fin cfg1.N) (h0 : t.val % 8 = 0) (h1 : ¬t.val % 8 = 7) :
    outsAt V c t.val t.isLt = (idleOut, accFirstAt V c t h0 h1) := by
  obtain ⟨n, hn⟩ := t
  cases n with
  | zero => exact rfl
  | succ n => exact (dif_pos h0).trans ((dif_neg h1).trans rfl)

theorem outsAt_mid (c : Dev nD) (t : Fin cfg1.N) (h0 : ¬t.val % 8 = 0) (h1 : ¬t.val % 8 = 7) :
    outsAt V c t.val t.isLt = (idleOut, accMidAt V c t h0 h1 (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 8 = 0) (h1 : t.val % 8 = 7) :
    outsAt V c t.val t.isLt = (outLastAt V c t h0 h1 (outsAt V c (t.val - 1) (Nat.lt_of_le_of_lt (Nat.sub_le _ _) t.isLt)).2, accLastAt V c t h0 h1 (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant (the accumulator at anything); afterwards the
    accumulator at what the point before left, the other scoped buffers at anything, the generator register at some state. -/
def PhiS (c : Dev nD) : (n : ℕ) → n ≤ cfg1.N → sProp 𝕄
  | 0, _ => Pipeline.ΦA spec1 c
  | n + 1, hn => iprop(iprop(owns (c : Thread nD τ) mAcc fullShare ((outsAt V c n hn).2) ∗ others (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) mAcc fullShare ((outsAt V c n hn).2) ∗ others (F := F) c) ∗ (∃ r, prngReg c r)) := rfl
theorem PhiS_pos (c : Dev nD) (n : ℕ) (h : n ≤ cfg1.N) (hz : n ≠ 0) :
    PhiS V c n h = iprop(iprop(owns (c : Thread nD τ) mAcc fullShare ((outsAt V c (n - 1) (by omega)).2) ∗ others (F := F) c) ∗ (∃ r, prngReg c r)) := by
  cases n with
  | zero => exact absurd rfl hz
  | succ n => rfl

/-! ## The proof data -/

/-- The arrays as the region finds them; after the body each input's buffer at its tile and the output's at `outsAt`;
    the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = (outsAt V c t.val t.isLt).1 := by dsimp only [dat]
theorem before0 (c : Dev nD) (t : Fin cfg1.N) (d) : (dat V c).before 0 t d = iblk V c 0 t :=
  before_adj V (dat V c) (A_eq V c 0) (after0 V c) t d
theorem before1 (c : Dev nD) (t : Fin cfg1.N) (d) : (dat V c).before 1 t d = iblk V c 1 t :=
  before_feat V (dat V c) (A_eq V c 1) (after1 V c) t d

/-! ## The body obligation at a generic point -/

def bodyPre (c : Dev nD) (t : Fin cfg1.N) : sProp 𝕄 :=
  iprop((dat V c).Φ t.castSucc ∗ (dat V c).owesAt () t.castSucc
    ∗ (∃ d, owns (c : Thread nD τ) (mAdj t) fullShare ((dat V c).before 0 t d))
    ∗ (∃ d, owns (c : Thread nD τ) (mFeat t) fullShare ((dat V c).before 1 t d))
    ∗ (∃ d, owns (c : Thread nD τ) (mOut t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their tiles; `t % 8` says which case the point is in; the invariant hands
    the body the accumulator at what the point before left (at anything before the first point) and takes it back at
    this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [Dat.leavesExact_idle (dat V c) 2 t (idle_out t (fun h => h1 ((isLast_iff t).mp h))) (noFlush_out t (fun h => h1 ((isLast_iff t).mp h)))]
      rw [outsAt_first V c t h0 h1]
      unfold accFirstAt accFirst; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩⟩
        iapply ((runFirst c (grid1.coords t) _ _ _ _ _ _ _ _ ((isFirst_iff t).mpr h0) (fun h => h1 ((isLast_iff t).mp h)) (iblk V c 0 t) (iblk V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accFirst_cover c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS, Hoth⟩, Hg⟩, Ho, ⟨%d0, H0⟩, ⟨%d1, H1⟩, ⟨%d2, H2⟩⟩
        iapply ((runFirst c (grid1.coords t) _ _ _ _ _ _ _ _ ((isFirst_iff t).mpr h0) (fun h => h1 ((isLast_iff t).mp h)) (iblk V c 0 t) (iblk V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accFirst_cover c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 8 = 7
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [show (dat V c).leavesExact 2 t = owns (c : Thread nD τ) (mOut t) fullShare ((dat V c).after 2 t) from (by unfold Dat.leavesExact; rw [live_out t ((isLast_iff t).mpr h1)]), after2]
      rw [outsAt_last V c t h0 h1]
      unfold outLastAt accLastAt outLast accLast; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩⟩
        iapply ((runLast c (grid1.coords t) _ _ _ _ _ _ _ _ (fun h => h0 ((isFirst_iff t).mp h)) ((isLast_iff t).mpr h1) (iblk V c 0 t) (iblk V c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hoth Hg]
        · isplitl [HS Hoth]
          · isplitl [HS]
            · unfold owns; iexists _; isplitr
              swap; · iexact HS
              ipureintro; exact View.read_writes_of_cover _ _ _ _ _ (accLast_cover c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (outLast_cover c _ _ _ _ _ _ _ _ _ _ _ _ _ _)
    · rw [show (dat V c).leavesExact 0 t = owns (c : Thread nD τ) (mAdj t) fullShare ((dat V c).after 0 t) from (by unfold Dat.leavesExact; rw [live_adj t]), after0]
      rw [show (dat V c).leavesExact 1 t = owns (c : Thread nD τ) (mFeat t) fullShare ((dat V c).after 1 t) from (by unfold Dat.leavesExact; rw [live_feat t]), after1]
      rw [Dat.leavesExact_idle (dat V c) 2 t (idle_out t (fun h => h1 ((isLast_iff t).mp h))) (noFlush_out t (fun h => h1 ((isLast_iff t).mp h)))]
      rw [outsAt_mid V c t h0 h1]
      unfold accMidAt accMid; (try dsimp only)
      by_cases hz : t.val = 0
      · exfalso; omega
      · rw [PhiS_castSucc V c t, PhiS_pos V c _ _ hz]
        iintro ⟨⟨⟨HS, Hoth⟩, Hg⟩, Ho, ⟨%d0, H0⟩, ⟨%d1, H1⟩, ⟨%d2, H2⟩⟩
        iapply ((runMid c (grid1.coords t) _ _ _ _ _ _ _ _ (fun h => h0 ((isFirst_iff t).mp h)) (fun h => h1 ((isLast_iff t).mp h)) (iblk V c 0 t) (iblk V c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accMid_cover c _ _ _ _ _ _ _ _ _ _ _ _ _ _)
            iexact Hoth
          iexact Hg
        isplitl [Ho]; · iexact Ho
        isplitl [H0]; · iexact H0
        isplitl [H1]; · iexact H1
        iexists _; iexact H2

/-- The body obligation, at every point. -/
theorem body_obligation (c : Dev nD) : BodyObligation (dat (F := F) V c) (defs₀ (F := F)) Variants.none () Set.univ := fun t => by
  rw [bigSep_W1, bigSep_W1]
  exact sound_body V c t

/-! ## Into and out of the invariant -/

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the accumulator's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem hout (c : Dev nD) : (dat V c).Φ (Fin.last cfg1.N) ⊢ Pipeline.ΦA spec1 c :=
  Phi_out V c _ (by rw [Fin.val_last]; have : cfg1.N = 64 := N_1; omega)

end Cert.KernelIdeal.Pool1

end
-- ==== Proof.Run.lean ====
/-
  The whole program as seven items in order — two stretches of host operations, pooling step 1, two more stretches,
  pooling step 2, the closing stretch — and its run: every weakly fair execution terminates without a fault, and at the
  end every unscoped buffer holds what the items leave in it, computed as a fold from the launch memory.  A host
  stretch applies its operations; a pooling step replaces its output array by what its write-backs leave and keeps
  every other buffer.  Both the claim that the arguments end unchanged and the value of the result are read off this
  last valuation.
-/
import proofs.«112922_j28157805593353_1_alg».proof.Proof.R0Body
import proofs.«112922_j28157805593353_1_alg».proof.Proof.R1Body

-- membership in a rectangle of 2048 rows: the structural look recurses once per coordinate of the long axes
set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- At launch. -/
abbrev W0 : Dev nD → Valuation τ sig (Elt F) := fun c b => m (c, b)
/-- After the first host stretch (index wrap, gather, first dense layer up to the bias). -/
abbrev W1 : Dev nD → Valuation τ sig (Elt F) := fun c => StableHlo.after hostOps0 (W0 m c)
/-- After the first rectifier: pooling step 1's entry. -/
abbrev W2 : Dev nD → Valuation τ sig (Elt F) := fun c => StableHlo.after hostOps0_1 (W1 m c)
/-- The same read at the TensorCore's references. -/
abbrev VA : (c : Dev nD) → (b : Ref sig .tc) → Buf (Elt F) ((c : Thread nD τ).loc b) := fun c b => W2 m c b
/-- At pooling step 1's exit: its arrays at what the pipeline leaves, every other buffer as entered. -/
def W3 (c : Dev nD) : Valuation τ sig (Elt F) :=
  Pipeline.withArrays spec0 c (W2 m c) fun w => (Pool0.dat (VA m) c).arrAt w cfg0.N
theorem W3_arr (c : Dev nD) (w : Fin cfg0.W) :
    W3 m c (Proc.devRef .tc (Pipeline.arrRef spec0 w)) = (Pool0.dat (VA m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev VAx : (c : Dev nD) → (b : Ref sig .tc) → Buf (Elt F) ((c : Thread nD τ).loc b) := fun c b => W3 m c b
theorem hF0 (c : Dev nD) (w : Fin cfg0.W) : (Pool0.dat (VA m) c).arrAt w cfg0.N = VAx m c (Pipeline.arrRef spec0 w) :=
  (W3_arr m c w).symm
theorem hrest0 (c : Dev nD) : ∀ b, b ∉ Finset.univ.image (Pipeline.arrRef spec0) → VAx m c b = VA m c b :=
  fun b hb => W3_of_ne m c b fun w e => hb (Finset.mem_image.mpr ⟨w, Finset.mem_univ _, e⟩)

/-- After the second dense layer up to the bias. -/
abbrev W4 : Dev nD → Valuation τ sig (Elt F) := fun c => StableHlo.after hostOps1 (W3 m c)
/-- After the second rectifier: pooling step 2's entry. -/
abbrev W5 : Dev nD → Valuation τ sig (Elt F) := fun c => StableHlo.after hostOps1_1 (W4 m c)
abbrev VB : (c : Dev nD) → (b : Ref sig .tc) → Buf (Elt F) ((c : Thread nD τ).loc b) := fun c b => W5 m c b
/-- At pooling step 2's exit. -/
def W6 (c : Dev nD) : Valuation τ sig (Elt F) :=
  Pipeline.withArrays spec1 c (W5 m c) fun w => (Pool1.dat (VB m) c).arrAt w cfg1.N
theorem W6_arr (c : Dev nD) (w : Fin cfg1.W) :
    W6 m c (Proc.devRef .tc (Pipeline.arrRef spec1 w)) = (Pool1.dat (VB m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VBx : (c : Dev nD) → (b : Ref sig .tc) → Buf (Elt F) ((c : Thread nD τ).loc b) := fun c b => W6 m c b
theorem hF1 (c : Dev nD) (w : Fin cfg1.W) : (Pool1.dat (VB m) c).arrAt w cfg1.N = VBx m c (Pipeline.arrRef spec1 w) :=
  (W6_arr m c w).symm
theorem hrest1 (c : Dev nD) : ∀ b, b ∉ Finset.univ.image (Pipeline.arrRef spec1) → VBx m c b = VB m c b :=
  fun b hb => W6_of_ne m c b fun w e => hb (Finset.mem_image.mpr ⟨w, Finset.mem_univ _, e⟩)

/-- After the closing stretch (the sum over the rows): the end. -/
abbrev W7 : Dev nD → Valuation τ sig (Elt F) := fun c => StableHlo.after hostOps2 (W6 m c)

/-! ## The proof data family and what rides beside the buffers -/

/-- No pooling step reads a prefetched table. -/
abbrev tabs : (p : Fin 2) → (pcfgs (F := F) p).Adm := fun p => (cfgs p).toPCfg_adm
/-- Each pooling step's proof data at its own entry contents: a literal match on the step. -/
def pdats : (p : Fin 2) → (c : Dev nD) → Dat τ (Elt F) Unit ℕ (UR sig nD τ) ℕ (Pipeline.pin (pcfgs (F := F)) tabs p) c
  | ⟨0, _⟩ => fun c => Pool0.dat (VA m) c
  | ⟨1, _⟩ => fun c => Pool1.dat (VB m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The two pooling steps as segments -/

-- a library lemma stated over the pinned configuration unifies with the printed one only when unification may unfold plain
-- definitions in a metavariable's type
set_option backward.isDefEq.respectTransparency.types false in
/-- Pooling step 1 as a segment: entered with every unscoped buffer at `W2`, left at `W3`. Its three arrays are split
    out of the unscoped buffers and put back at the exit contents; the generator register goes into the region invariant and
    comes back; nothing is owed; the kernel has no semaphore of its own. -/
def reg0 : Pipeline.RegionSeg (pcfgs (F := F)) tabs (pdats m) () defs₀ 𝒱₀ L lv 0 where
  win := launch0.win.to₀
  block_pos := launch0.block_pos
  stage_whole := launch0.stage_whole
  K := PEmpty
  osem k := k.elim
  ho := Pipeline.OwnSemFacts.none _
  hbody c := (Pool0.body_obligation (VA m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄) ⊢ (pdats m 0 c).Φ 0 := Pool0.hin (VA m) c
    iintro ⟨Hp, -, Hr⟩
    iapply h
    isplitl [Hr]; · iexact Hr
    iexact Hp
  hout c := by
    rw [Pipeline.ownSems0_none]
    have h : (pdats m 0 c).Φ (Fin.last (Pipeline.pin (pcfgs (F := F)) tabs 0).N) ⊢ (iprop(Pipeline.scopedRest (Ix := Unit) (Name := ℕ) (U := UR sig nD τ) (Lvl := ℕ) (Val := Elt F) spec0 c ∗ ∃ r, prngReg c r) : sProp 𝕄) := Pool0.hout (VA m) c
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (VA m c) (VAx m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pooling step 2 as a segment: entered with every unscoped buffer at `W5`, left at `W6`. Its three arrays are split
    out of the unscoped buffers and put back at the exit contents; the generator register goes into the region invariant and
    comes back; nothing is owed; the kernel has no semaphore of its own. -/
def reg1 : Pipeline.RegionSeg (pcfgs (F := F)) tabs (pdats m) () defs₀ 𝒱₀ L lv 1 where
  win := launch1.win.to₀
  block_pos := launch1.block_pos
  stage_whole := launch1.stage_whole
  K := PEmpty
  osem k := k.elim
  ho := Pipeline.OwnSemFacts.none _
  hbody c := (Pool1.body_obligation (VB m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄) ⊢ (pdats m 1 c).Φ 0 := Pool1.hin (VB m) c
    iintro ⟨Hp, -, Hr⟩
    iapply h
    isplitl [Hr]; · iexact Hr
    iexact Hp
  hout c := by
    rw [Pipeline.ownSems0_none]
    have h : (pdats m 1 c).Φ (Fin.last (Pipeline.pin (pcfgs (F := F)) tabs 1).N) ⊢ (iprop(Pipeline.scopedRest (Ix := Unit) (Name := ℕ) (U := UR sig nD τ) (Lvl := ℕ) (Val := Elt F) spec1 c ∗ ∃ r, prngReg c r) : sProp 𝕄) := Pool1.hout (VB m) c
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (VB m c) (VBx m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The seven items in order. -/
abbrev segs : List (Pipeline.Seg (pcfgs (F := F)) tabs (pdats m) () defs₀ 𝒱₀ L lv) :=
  [ .host (hseg hostOps0 hostOps0_sub fresh0 (W0 m)),
    .host (hseg hostOps0_1 hostOps0_1_sub fresh0_1 (W1 m)),
    .region (reg0 m),
    .host (hseg hostOps1 hostOps1_sub fresh1 (W3 m)),
    .host (hseg hostOps1_1 hostOps1_1_sub fresh1_1 (W4 m)),
    .region (reg1 m),
    .host (hseg hostOps2 hostOps2_sub fresh2 (W6 m)) ]

-- the launch theorem's implicit arguments are found by unifying its conclusion with this one, which takes unfolding plain
-- definitions in a metavariable's type
set_option backward.isDefEq.respectTransparency.types false in
/-- THE RUN. From any memory with zero counters every weakly fair execution of the program terminates, nothing
    faulting, and every final state has every unscoped buffer at the last valuation `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) := by
  refine Pipeline.θ_run_regions_kit_dev (pcfgs (F := F)) tabs (pdats m) () cellOf_inj emb₁ defs₀ 𝒱₀ L lv m ρ main
    (fun _ => segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl,
      (show (iprop(StableHlo.held (c : Thread nD τ) (Pipeline.ucRefs τ sig) (W7 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Pool

end
-- ==== Proof.Ends.lean ====
/-
  What the program's buffers hold at the end, read off the last valuation.  A buffer that no host operation writes and
  that is no array of either pooling step ends as launched; the adjacency matrix is an input array of both pooling
  steps, and an input array leaves a pooling step as it entered.  So the seven arguments end unchanged, and the result
  buffer ends at the closing row sum applied to what pooling step 2 leaves.
-/
import proofs.«112922_j28157805593353_1_alg».proof.Proof.Run
import proofs.«112922_j28157805593353_1_alg».proof.Proof.Gen.KernelIdeal.Regions

-- membership in a rectangle of 2048 rows: the structural look recurses once per coordinate of the long axes
set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no item writes ends as launched. -/
theorem W7_keep (c : Dev nD) (r : Ref sig .tc)
    (h0 : r ∉ hostOps0_W) (h01 : r ∉ hostOps0_1_W) (hA : ∀ w, Pipeline.arrRef spec0 w ≠ r)
    (h1 : r ∉ hostOps1_W) (h11 : r ∉ hostOps1_1_W) (hB : ∀ w, Pipeline.arrRef spec1 w ≠ r) (h2 : r ∉ hostOps2_W) :
    W7 m c r = m ((c : Thread nD τ).loc r) :=
  calc W7 m c r = W6 m c r := StableHlo.after_of_writes_sub hostOps2 _ hostOps2_writes h2
    _ = W5 m c r := W6_of_ne m c r hB
    _ = W4 m c r := StableHlo.after_of_writes_sub hostOps1_1 _ hostOps1_1_writes h11
    _ = W3 m c r := StableHlo.after_of_writes_sub hostOps1 _ hostOps1_writes h1
    _ = W2 m c r := W3_of_ne m c r hA
    _ = W1 m c r := StableHlo.after_of_writes_sub hostOps0_1 _ hostOps0_1_writes h01
    _ = W0 m c r := StableHlo.after_of_writes_sub hostOps0 _ hostOps0_writes h0
    _ = m ((c : Thread nD τ).loc r) := rfl

/-- The adjacency matrix at pooling step 2's entry is the launch contents: pooling step 1 hands its input arrays back. -/
theorem VB_adj (c : Dev nD) : VB m c main_arg1 = m ((c : Thread nD τ).loc main_arg1) :=
  calc VB m c main_arg1 = W4 m c main_arg1 := StableHlo.after_of_writes_sub hostOps1_1 _ hostOps1_1_writes (by decide)
    _ = W3 m c main_arg1 := StableHlo.after_of_writes_sub hostOps1 _ hostOps1_writes (by decide)
    _ = (Pool0.dat (VA m) c).arrAt 0 cfg0.N := W3_arr m c 0
    _ = VA m c main_arg1 := ((Pool0.dat (VA m) c).arrAt_in 0 rfl _).trans (Pool0.A_eq (VA m) c 0)
    _ = W1 m c main_arg1 := StableHlo.after_of_writes_sub hostOps0_1 _ hostOps0_1_writes (by decide)
    _ = W0 m c main_arg1 := StableHlo.after_of_writes_sub hostOps0 _ hostOps0_writes (by decide)
    _ = m ((c : Thread nD τ).loc main_arg1) := rfl

/-- And it ends as launched. -/
theorem W7_adj (c : Dev nD) : W7 m c main_arg1 = m ((c : Thread nD τ).loc main_arg1) :=
  calc W7 m c main_arg1 = W6 m c main_arg1 := StableHlo.after_of_writes_sub hostOps2 _ hostOps2_writes (by decide)
    _ = (Pool1.dat (VB m) c).arrAt 0 cfg1.N := W6_arr m c 0
    _ = VB m c main_arg1 := ((Pool1.dat (VB m) c).arrAt_in 0 rfl _).trans (Pool1.A_eq (VB m) c 0)
    _ = m ((c : Thread nD τ).loc main_arg1) := VB_adj m c

/-- THE RUN, READ: the result buffer at the last valuation, the seven arguments unchanged. -/
theorem run_ends : θ_run defs (onTc (τ := τ) (main (F := F))) ⟨m, fun _ => 0, ρ⟩ (fun r => ∀ c : Dev nD,
      r.2.mem ((c.tc : Thread nD τ).loc main_v19) = W7 m c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v19 (by decide)),
    (h c _ (mem_uc main_arg0 (by decide))).trans (W7_keep m c main_arg0 (by decide) (by decide) (by decide) (by decide) (by decide) (by decide) (by decide)),
    (h c _ (mem_uc main_arg1 (by decide))).trans (W7_adj m c),
    (h c _ (mem_uc main_arg2 (by decide))).trans (W7_keep m c main_arg2 (by decide) (by decide) (by decide) (by decide) (by decide) (by decide) (by decide)),
    (h c _ (mem_uc main_arg3 (by decide))).trans (W7_keep m c main_arg3 (by decide) (by decide) (by decide) (by decide) (by decide) (by decide) (by decide)),
    (h c _ (mem_uc main_arg4 (by decide))).trans (W7_keep m c main_arg4 (by decide) (by decide) (by decide) (by decide) (by decide) (by decide) (by decide)),
    (h c _ (mem_uc main_arg5 (by decide))).trans (W7_keep m c main_arg5 (by decide) (by decide) (by decide) (by decide) (by decide) (by decide) (by decide)),
    (h c _ (mem_uc main_arg6 (by decide))).trans (W7_keep m c main_arg6 (by decide) (by decide) (by decide) (by decide) (by decide) (by decide) (by decide))⟩) (run_all m ρ)

/-- THE FRAME: every weakly fair execution terminates, nothing faulting, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_ends m ρ)

end Cert.KernelIdeal.Pool

end
-- ==== Proof.R0Value.lean ====
/-
  Pooling step 1: the values.  What each case leaves is the body's arithmetic applied to the tiles it loaded: a middle
  or last reduction tile leaves "what the accumulator held, plus the tile product"; a first reduction tile leaves
  "the zero tile, plus the tile product"; and at a last reduction tile the output tile is a copy of the accumulator.
-/
import proofs.«112922_j28157805593353_1_alg».proof.Proof.R0Body
import Idealize.ShloMosaic.Lib.Pipeline.Value
import Idealize.ShloMosaic.Lib.ValueIdx

-- membership in a rectangle of 2048 rows: the structural look recurses once per coordinate of the long axes
set_option maxRecDepth 16384

noncomputable section

namespace Cert.KernelIdeal.Pool0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Middle reduction tile: one covering store of the payload, whose loads read the whole buffers. -/
theorem accMid_eq (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) :
    accMid c i arg2 harg2 arg3 harg3 arg4 harg4 arg5 harg5 hc0 hc1 x0 x1 xs = k0_pay2 x0 x1 xs := by
  unfold accMid
  rw [View.read_writes_eq_canon _ _ _ (accMid_cover c i arg2 harg2 arg3 harg3 arg4 harg4 arg5 harg5 hc0 hc1 x0 x1 xs)]
  unfold runMid
  dsimp only
  rw [View.canon_unit_zero hz]
  simp only [View.readAt_eq_ld, harg2.read_unread, harg3.read_unread, harg5.read_unread, View.ld_unit_zero (S := S2048x2048) hz, View.ld_unit_zero (S := S2048x64) hz]

/-- Last reduction tile, the accumulator: the same store. -/
theorem accLast_eq (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) :
    accLast c i arg2 harg2 arg3 harg3 arg4 harg4 arg5 harg5 hc0 hc1 x0 x1 xs = k0_pay2 x0 x1 xs := by
  unfold accLast
  rw [View.read_writes_eq_canon _ _ _ (accLast_cover c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.ld_unit_zero (S := S2048x2048) hz, View.ld_unit_zero (S := S2048x64) hz]

/-- Last reduction tile, the output tile: the accumulator just stored, read back and stored whole. -/
theorem outLast_eq (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) :
    outLast c i arg2 harg2 arg3 harg3 arg4 harg4 arg5 harg5 hc0 hc1 x0 x1 xs = k0_pay2 x0 x1 xs := by
  unfold outLast
  rw [View.read_writes_eq_canon _ _ _ (outLast_cover c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.ld_unit_zero (S := S2048x2048) hz, View.ld_unit_zero (S := S2048x64) hz, View.readCov_unit_zero (S := S2048x64) _ hz]

/-- First reduction tile: the zero tile is stored and read back, then the payload over it is stored. -/
theorem accFirst_eq (c : Dev nD) (i : grid0.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) :
    accFirst c i arg2 harg2 arg3 harg3 arg4 harg4 arg5 harg5 hc0 hc1 x0 x1 = k0_pay2 x0 x1 (k0_pay1 (F := F)) := by
  unfold accFirst
  rw [View.read_writes_eq_canon _ _ _ (accFirst_cover c i arg2 harg2 arg3 harg3 arg4 harg4 arg5 harg5 hc0 hc1 x0 x1)]
  unfold runFirst
  dsimp only
  sl_unfold_words
  rw [View.canon_cons_unit_zero (S := S2048x64) hz, View.readCov_unit_zero (S := S2048x64) _ hz]
  simp only [View.readAt_eq_ld, harg2.read_unread, harg3.read_unread, View.ld_unit_zero (S := S2048x2048) hz, View.ld_unit_zero (S := S2048x64) hz]

end Cert.KernelIdeal.Pool0

end
-- ==== Proof.PayIdx.lean ====
/-
  The two payloads of the pooling kernel's body read at an index, at the extended reals. The first is the zero array.
  The second is the accumulator plus the product of a 2048 × 2048 tile with a 2048 × 64 tile: a change of float format
  and a cast to the same shape are identities there, and a matrix product into the zero accumulator is the plain sum,
  over the contracted axis, of the products of the entries.
-/
import proofs.«112922_j28157805593353_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.SL.Sem
open scoped BigOperators

namespace Cert.Proof.Pay

/-! ## The operand indices of the tile product -/

/-- The left operand is read in the output's row … -/
theorem lhs_row (i : Cert.KernelIdeal.S2048x64.Idx) (q : Cert.KernelIdeal.dot_S2048x2048_S2048x64_S2048x64_1_0_0_1_n_n.contr.Idx) :
    (Cert.KernelIdeal.dot_S2048x2048_S2048x64_S2048x64_1_0_0_1_n_n.lhsIdx i q 0).val = (i 0).val := by
  unfold DotDims.lhsIdx
  rw [dif_neg (show ¬(0 : Fin Cert.KernelIdeal.S2048x2048.rank) ∈ Cert.KernelIdeal.dot_S2048x2048_S2048x64_S2048x64_1_0_0_1_n_n.lhsBatch by decide), dif_pos (show (0 : Fin Cert.KernelIdeal.S2048x2048.rank) ∈ Cert.KernelIdeal.dot_S2048x2048_S2048x64_S2048x64_1_0_0_1_n_n.lhsNonContracting by decide)]
  rfl
/-- … at the contracted column; -/
theorem lhs_col (i : Cert.KernelIdeal.S2048x64.Idx) (q : Cert.KernelIdeal.dot_S2048x2048_S2048x64_S2048x64_1_0_0_1_n_n.contr.Idx) :
    (Cert.KernelIdeal.dot_S2048x2048_S2048x64_S2048x64_1_0_0_1_n_n.lhsIdx i q 1).val = (q ⟨0, by decide⟩).val :=
  Cert.KernelIdeal.dot_S2048x2048_S2048x64_S2048x64_1_0_0_1_n_n.lhsIdx_val_of_single rfl i q
/-- the right operand at the contracted row … -/
theorem rhs_row (i : Cert.KernelIdeal.S2048x64.Idx) (q : Cert.KernelIdeal.dot_S2048x2048_S2048x64_S2048x64_1_0_0_1_n_n.contr.Idx) :
    (Cert.KernelIdeal.dot_S2048x2048_S2048x64_S2048x64_1_0_0_1_n_n.rhsIdx i q 0).val = (q ⟨0, by decide⟩).val :=
  Cert.KernelIdeal.dot_S2048x2048_S2048x64_S2048x64_1_0_0_1_n_n.rhsIdx_val_of_single rfl i q
/-- … in the output's column. -/
theorem rhs_col (i : Cert.KernelIdeal.S2048x64.Idx) (q : Cert.KernelIdeal.dot_S2048x2048_S2048x64_S2048x64_1_0_0_1_n_n.contr.Idx) :
    (Cert.KernelIdeal.dot_S2048x2048_S2048x64_S2048x64_1_0_0_1_n_n.rhsIdx i q 1).val = (i 1).val := by
  unfold DotDims.rhsIdx
  rw [dif_neg (show ¬(1 : Fin Cert.KernelIdeal.S2048x64.rank) ∈ Cert.KernelIdeal.dot_S2048x2048_S2048x64_S2048x64_1_0_0_1_n_n.rhsBatch by decide), dif_pos (show (1 : Fin Cert.KernelIdeal.S2048x64.rank) ∈ Cert.KernelIdeal.dot_S2048x2048_S2048x64_S2048x64_1_0_0_1_n_n.rhsNonContracting by decide)]
  rfl

/-! ## The tile product at an index -/

/-- Into the zero accumulator, entry `(r, d)` of the product is the sum over `j` of `l[r, j] * x[j, d]`. -/
theorem tile_product_apply (l : FVec Ideal Cert.KernelIdeal.S2048x2048 .bf16) (x : FVec Ideal Cert.KernelIdeal.S2048x64 .bf16) (r : Fin 2048) (d : Fin 64) :
    matmul (F := Ideal) (φ₁ := .bf16) (φ₂ := .bf16) Cert.KernelIdeal.dot_S2048x2048_S2048x64_S2048x64_1_0_0_1_n_n none l x (constant (F := Ideal) Cert.KernelIdeal.S2048x64 .f32 0x00000000#32) (ValueIdx.ix2 r d)
      = ∑ j : Fin 2048, l (ValueIdx.ix2 r j) * x (ValueIdx.ix2 j d) := by
  simp only [matmul]
  rw [Ideal.matmul_constant_zero_apply, ← Equiv.sum_comp (ValueIdx.contrEquiv1 Cert.KernelIdeal.dot_S2048x2048_S2048x64_S2048x64_1_0_0_1_n_n 2048 rfl rfl).symm]
  refine Finset.sum_congr rfl fun j _ => ?_
  have hk := ValueIdx.contrEquiv1_symm_val Cert.KernelIdeal.dot_S2048x2048_S2048x64_S2048x64_1_0_0_1_n_n 2048 rfl rfl j
  have el : Cert.KernelIdeal.dot_S2048x2048_S2048x64_S2048x64_1_0_0_1_n_n.lhsIdx (ValueIdx.ix2 r d) ((ValueIdx.contrEquiv1 Cert.KernelIdeal.dot_S2048x2048_S2048x64_S2048x64_1_0_0_1_n_n 2048 rfl rfl).symm j) = ValueIdx.ix2 r j := funext fun i => Fin.ext (by
    match i with
    | ⟨0, _⟩ => exact lhs_row _ _
    | ⟨1, _⟩ => exact (lhs_col _ _).trans hk)
  have er : Cert.KernelIdeal.dot_S2048x2048_S2048x64_S2048x64_1_0_0_1_n_n.rhsIdx (ValueIdx.ix2 r d) ((ValueIdx.contrEquiv1 Cert.KernelIdeal.dot_S2048x2048_S2048x64_S2048x64_1_0_0_1_n_n 2048 rfl rfl).symm j) = ValueIdx.ix2 j d := funext fun i => Fin.ext (by
    match i with
    | ⟨0, _⟩ => exact (rhs_row _ _).trans hk
    | ⟨1, _⟩ => exact rhs_col _ _)
  rw [el, er]

/-! ## The payloads -/

/-- The first payload of pooling one: the zero array. -/
theorem pay01_apply (r : Fin 2048) (d : Fin 64) :
    Cert.KernelIdeal.Gen.k0_pay1 (F := Ideal) (ValueIdx.ix2 r d) = 0 := by
  unfold Cert.KernelIdeal.Gen.k0_pay1
  rw [shapeCast_self]
  exact Ideal.ofBits_zero_f32

/-- The second payload of pooling one: the accumulator plus the product of the two tiles. -/
theorem pay02_apply (v3 : Vec Ideal Cert.KernelIdeal.S2048x2048 .f32) (v5 v8 : Vec Ideal Cert.KernelIdeal.S2048x64 .f32) (r : Fin 2048) (d : Fin 64) :
    Cert.KernelIdeal.Gen.k0_pay2 (F := Ideal) v3 v5 v8 (ValueIdx.ix2 r d)
      = v8 (ValueIdx.ix2 r d) + ∑ j : Fin 2048, v3 (ValueIdx.ix2 r j) * v5 (ValueIdx.ix2 j d) := by
  unfold Cert.KernelIdeal.Gen.k0_pay2
  rw [shapeCast_self, shapeCast_self]
  exact congrArg (v8 (ValueIdx.ix2 r d) + ·) (tile_product_apply _ _ r d)

/-- The first payload of pooling two: the zero array. -/
theorem pay11_apply (r : Fin 2048) (d : Fin 64) :
    Cert.KernelIdeal.Gen.k1_pay1 (F := Ideal) (ValueIdx.ix2 r d) = 0 := by
  unfold Cert.KernelIdeal.Gen.k1_pay1
  rw [shapeCast_self]
  exact Ideal.ofBits_zero_f32

/-- The second payload of pooling two: the accumulator plus the product of the two tiles. -/
theorem pay12_apply (v3 : Vec Ideal Cert.KernelIdeal.S2048x2048 .f32) (v5 v8 : Vec Ideal Cert.KernelIdeal.S2048x64 .f32) (r : Fin 2048) (d : Fin 64) :
    Cert.KernelIdeal.Gen.k1_pay2 (F := Ideal) v3 v5 v8 (ValueIdx.ix2 r d)
      = v8 (ValueIdx.ix2 r d) + ∑ j : Fin 2048, v3 (ValueIdx.ix2 r j) * v5 (ValueIdx.ix2 j d) := by
  unfold Cert.KernelIdeal.Gen.k1_pay2
  rw [shapeCast_self, shapeCast_self]
  exact congrArg (v8 (ValueIdx.ix2 r d) + ·) (tile_product_apply _ _ r d)

end Cert.Proof.Pay

end
-- ==== Proof.Chain.lean ====
/-
  The host stretches of the pooled two-layer network, each as one pure function of its inputs.
  `pre` wraps negative row numbers by 128, gathers the table's rows, multiplies by the first weight matrix, adds the
  first bias along rows and clamps at zero; `mid` is the second affine layer followed by the same clamp; `tail` adds up
  the 16384 rows of its argument, starting from zero. Each is the composition of the program's own operations, in the
  program's order, and is never unfolded where the two programs are compared.
-/
import proofs.«112922_j28157805593353_1_alg».proof.KernelIdeal

noncomputable section

namespace Cert.KernelIdeal.Chain

open Idealize.ShloMosaic Idealize.SL.Sem
open Cert.KernelIdeal Cert.KernelIdeal.Facts₀

variable {F : FTy → Type} [FloatOps F] [Cert.KernelIdeal.Facts]

/-- The clamp at zero: the entrywise maximum with the zero array. -/
def relu (x : (⟨S16384x64, .f32⟩ : BufTy).Contents (Elt F)) : (⟨S16384x64, .f32⟩ : BufTy).Contents (Elt F) :=
  maximumf x (broadcastInDim S16384x64 ![] bcast_S_S16384x64 (constant (F := F) S_ .f32 0x00000000#32))

/-- The first layer: row `r` of the result is `relu (tbl[wrap idx[r]] · w + b)`, where `wrap i` is `i + 128` for a
    negative `i` and `i` otherwise. -/
def pre (idx : (⟨S16384, .i32⟩ : BufTy).Contents (Elt F)) (tbl : (⟨S128x64, .f32⟩ : BufTy).Contents (Elt F))
    (w : (⟨S64x64, .f32⟩ : BufTy).Contents (Elt F)) (b : (⟨S64, .f32⟩ : BufTy).Contents (Elt F)) :
    (⟨S16384x64, .f32⟩ : BufTy).Contents (Elt F) :=
  relu (addf
    (Host.dotGeneral dot_S16384x64_S64x64_S16384x64_1_0_0_1_n_n none
      (Host.gather gather_S128x64_S16384x1_S16384x64_1_0_n_n_0_1_164 tbl
        (broadcastInDim S16384x1 ![0] bcast_S16384_S16384x1_0
          (select
            (cmpi .slt idx (broadcastInDim S16384 ![] bcast_S_S16384 (constantI S_ 32 0#32)))
            (addi idx (broadcastInDim S16384 ![] bcast_S_S16384 (constantI S_ 32 128#32)))
            idx)))
      w)
    (broadcastInDim S16384x64 ![0, 1] bcast_S1x64_S16384x64_0_1 (broadcastInDim S1x64 ![1] bcast_S64_S1x64_1 b)))

/-- The second layer: `relu (x · w + b)`, the bias added along rows. -/
def mid (x : (⟨S16384x64, .f32⟩ : BufTy).Contents (Elt F)) (w : (⟨S64x64, .f32⟩ : BufTy).Contents (Elt F))
    (b : (⟨S64, .f32⟩ : BufTy).Contents (Elt F)) : (⟨S16384x64, .f32⟩ : BufTy).Contents (Elt F) :=
  relu (addf
    (Host.dotGeneral dot_S16384x64_S64x64_S16384x64_1_0_0_1_n_n none x w)
    (broadcastInDim S16384x64 ![0, 1] bcast_S1x64_S16384x64_0_1 (broadcastInDim S1x64 ![1] bcast_S64_S1x64_1 b)))

/-- The column sums: entry `d` of the result is the sum over all rows `r` of `x[r, d]`, from zero. -/
def tail (x : (⟨S16384x64, .f32⟩ : BufTy).Contents (Elt F)) : (⟨S64, .f32⟩ : BufTy).Contents (Elt F) :=
  Host.reduceAdd x (constant (F := F) S_ .f32 0x00000000#32) reducesTo_S16384x64_S64_d0 h_S_

end Cert.KernelIdeal.Chain

end
-- ==== Proof.SumBlocks.lean ====
/-
  Two facts about finite sums in an additive commutative monoid. A sum over 16384 consecutive indices is the sum, over
  8 tiles, of the sums over the 2048 indices of each tile (the index `k * 2048 + j` runs through every index exactly
  once). A sequence that starts at `0 + s 0` and adds `s (n + 1)` at step `n + 1` holds the partial sums of `s`.
  Only associativity and commutativity of addition are used.
-/
import Mathlib.Algebra.BigOperators.Fin
import Mathlib.Algebra.BigOperators.Intervals
import Mathlib.Logic.Equiv.Fin.Basic

namespace Cert.Proof.SumBlocks

open Finset

/-- The sum over `Fin 16384` cut into 8 consecutive tiles of 2048. -/
theorem sum_tiles {M : Type*} [AddCommMonoid M] (f : Fin 16384 → M) :
    ∑ j : Fin 16384, f j = ∑ k : Fin 8, ∑ j : Fin 2048, f ⟨k.val * 2048 + j.val, by omega⟩ :=
  calc ∑ j : Fin 16384, f j
      = ∑ p : Fin 8 × Fin 2048, f (finProdFinEquiv p) :=
        ((finProdFinEquiv (m := 8) (n := 2048)).sum_comp f).symm
    _ = ∑ k : Fin 8, ∑ j : Fin 2048, f (finProdFinEquiv (k, j)) := Fintype.sum_prod_type _
    _ = ∑ k : Fin 8, ∑ j : Fin 2048, f ⟨k.val * 2048 + j.val, by omega⟩ :=
        Finset.sum_congr rfl fun k _ => Finset.sum_congr rfl fun j _ => congrArg f (Fin.ext (by
          show j.val + 2048 * k.val = k.val * 2048 + j.val
          omega))

/-- An accumulator started at `0 + s 0` and increased by `s (n + 1)` at each step holds the partial sums. -/
theorem acc_eq_sum {M : Type*} [AddCommMonoid M] (s : ℕ → M) (acc : ℕ → M) (h0 : acc 0 = 0 + s 0)
    (hs : ∀ n, acc (n + 1) = acc n + s (n + 1)) : ∀ n, acc n = ∑ k ∈ Finset.range (n + 1), s k := by
  intro n
  induction n with
  | zero => rw [h0, zero_add, Finset.sum_range_one]
  | succ n ih => rw [hs, ih, Finset.sum_range_succ _ (n + 1)]

end Cert.Proof.SumBlocks
-- ==== Proof.RefRun.lean ====
/-
  The reference program read as a chain of host stretches around its two poolings. Its run ends with the result at
  `tail (pool A (mid (pool A (pre idx tbl w₁ b₁)) w₂ b₂))`, where `pool A x` is the product `A · x` of the 16384 × 16384
  matrix with a 16384 × 64 array: the host stretches are, operation for operation, the functions of the other program's
  chain (the two programs' shape records have equal fields), so only the poolings remain to be compared. At the
  extended reals an entry of `A · x` is the sum over the contracted axis of the products of the entries, and a sum
  over 16384 indices is the sum over 8 tiles of the sums over the 2048 indices of each tile.
-/
import proofs.«112922_j28157805593353_1_alg».proof.Proof.Chain
import proofs.«112922_j28157805593353_1_alg».proof.Proof.SumBlocks
import proofs.«112922_j28157805593353_1_alg».proof.Proof.Gen.ReferenceIdeal.Run
import proofs.«112922_j28157805593353_1_alg».proof.Proof.Gen.ReferenceIdeal.Read

noncomputable section

open Idealize.ShloMosaic Idealize.ShloMosaic.TcCoe Idealize.SL.Sem
open scoped BigOperators

namespace Cert.Proof.Ref

open Cert.KernelIdeal (Chain.relu Chain.pre Chain.mid Chain.tail)

variable [Cert.KernelIdeal.Facts] [Cert.ReferenceIdeal.Facts]

/-! ## The two programs' shape records are the same records -/

/-- The dimension numbers of the 16384 × 64 by 64 × 64 product: the same lists in both programs. -/
theorem dot_eq : Cert.ReferenceIdeal.dot_S16384x64_S64x64_S16384x64_1_0_0_1_n_n = Cert.KernelIdeal.dot_S16384x64_S64x64_S16384x64_1_0_0_1_n_n := rfl

/-- The dimension numbers of the row gather: the same in both programs. -/
theorem gather_eq : Cert.ReferenceIdeal.gather_S128x64_S16384x1_S16384x64_1_0_n_n_0_1_164 = Cert.KernelIdeal.gather_S128x64_S16384x1_S16384x64_1_0_n_n_0_1_164 := rfl

/-! ## The host stretches of the reference are the chain's functions -/

section Stretches
variable {F : FTy → Type} [FloatOps F]

/-- The clamp at zero. -/
theorem relu_eq (x : (⟨Cert.KernelIdeal.S16384x64, .f32⟩ : BufTy).Contents (Elt F)) :
    maximumf x (broadcastInDim Cert.ReferenceIdeal.S16384x64 ![] Cert.ReferenceIdeal.Facts₀.bcast_S_S16384x64 (constant (F := F) Cert.ReferenceIdeal.S_ .f32 0x00000000#32)) = Chain.relu x := rfl

/-- The first layer: wrap the row numbers, gather, multiply, add the bias, clamp. -/
theorem pre_eq (x0 : (⟨Cert.KernelIdeal.S16384, .i32⟩ : BufTy).Contents (Elt F)) (x2 : (⟨Cert.KernelIdeal.S128x64, .f32⟩ : BufTy).Contents (Elt F))
    (x3 : (⟨Cert.KernelIdeal.S64x64, .f32⟩ : BufTy).Contents (Elt F)) (x4 : (⟨Cert.KernelIdeal.S64, .f32⟩ : BufTy).Contents (Elt F)) :
    maximumf (addf (Host.dotGeneral Cert.ReferenceIdeal.dot_S16384x64_S64x64_S16384x64_1_0_0_1_n_n none (Host.gather Cert.ReferenceIdeal.gather_S128x64_S16384x1_S16384x64_1_0_n_n_0_1_164 x2 (broadcastInDim Cert.ReferenceIdeal.S16384x1 ![0] Cert.ReferenceIdeal.Facts₀.bcast_S16384_S16384x1_0 (select (cmpi .slt x0 (broadcastInDim Cert.ReferenceIdeal.S16384 ![] Cert.ReferenceIdeal.Facts₀.bcast_S_S16384 (constantI Cert.ReferenceIdeal.S_ 32 0#32))) (addi x0 (broadcastInDim Cert.ReferenceIdeal.S16384 ![] Cert.ReferenceIdeal.Facts₀.bcast_S_S16384 (constantI Cert.ReferenceIdeal.S_ 32 128#32))) x0))) x3) (broadcastInDim Cert.ReferenceIdeal.S16384x64 ![0, 1] Cert.ReferenceIdeal.Facts₀.bcast_S1x64_S16384x64_0_1 (broadcastInDim Cert.ReferenceIdeal.S1x64 ![1] Cert.ReferenceIdeal.Facts₀.bcast_S64_S1x64_1 x4))) (broadcastInDim Cert.ReferenceIdeal.S16384x64 ![] Cert.ReferenceIdeal.Facts₀.bcast_S_S16384x64 (constant (F := F) Cert.ReferenceIdeal.S_ .f32 0x00000000#32))
      = Chain.pre x0 x2 x3 x4 := by
  rw [dot_eq, gather_eq]
  rfl

/-- The second layer: multiply, add the bias, clamp. -/
theorem mid_eq (x : (⟨Cert.KernelIdeal.S16384x64, .f32⟩ : BufTy).Contents (Elt F)) (x5 : (⟨Cert.KernelIdeal.S64x64, .f32⟩ : BufTy).Contents (Elt F)) (x6 : (⟨Cert.KernelIdeal.S64, .f32⟩ : BufTy).Contents (Elt F)) :
    maximumf (addf (Host.dotGeneral Cert.ReferenceIdeal.dot_S16384x64_S64x64_S16384x64_1_0_0_1_n_n none x x5) (broadcastInDim Cert.ReferenceIdeal.S16384x64 ![0, 1] Cert.ReferenceIdeal.Facts₀.bcast_S1x64_S16384x64_0_1 (broadcastInDim Cert.ReferenceIdeal.S1x64 ![1] Cert.ReferenceIdeal.Facts₀.bcast_S64_S1x64_1 x6))) (broadcastInDim Cert.ReferenceIdeal.S16384x64 ![] Cert.ReferenceIdeal.Facts₀.bcast_S_S16384x64 (constant (F := F) Cert.ReferenceIdeal.S_ .f32 0x00000000#32))
      = Chain.mid x x5 x6 := by
  rw [dot_eq]
  rfl

/-- The column sums from zero. -/
theorem tail_eq (x : (⟨Cert.KernelIdeal.S16384x64, .f32⟩ : BufTy).Contents (Elt F)) :
    Host.reduceAdd x (constant (F := F) Cert.ReferenceIdeal.S_ .f32 0x00000000#32) Cert.ReferenceIdeal.Facts₀.reducesTo_S16384x64_S64_d0 Cert.ReferenceIdeal.Facts₀.h_S_ = Chain.tail x := rfl

/-- The reference's whole result term: the chain's functions around the two products with the big matrix. -/
theorem chain_eq (x0 : (⟨Cert.KernelIdeal.S16384, .i32⟩ : BufTy).Contents (Elt F)) (x1 : (⟨Cert.KernelIdeal.S16384x16384, .f32⟩ : BufTy).Contents (Elt F))
    (x2 : (⟨Cert.KernelIdeal.S128x64, .f32⟩ : BufTy).Contents (Elt F)) (x3 : (⟨Cert.KernelIdeal.S64x64, .f32⟩ : BufTy).Contents (Elt F)) (x4 : (⟨Cert.KernelIdeal.S64, .f32⟩ : BufTy).Contents (Elt F))
    (x5 : (⟨Cert.KernelIdeal.S64x64, .f32⟩ : BufTy).Contents (Elt F)) (x6 : (⟨Cert.KernelIdeal.S64, .f32⟩ : BufTy).Contents (Elt F)) :
    Host.reduceAdd (Host.dotGeneral Cert.ReferenceIdeal.dot_S16384x16384_S16384x64_S16384x64_1_0_0_1_n_n none x1 (maximumf (addf (Host.dotGeneral Cert.ReferenceIdeal.dot_S16384x64_S64x64_S16384x64_1_0_0_1_n_n none (Host.dotGeneral Cert.ReferenceIdeal.dot_S16384x16384_S16384x64_S16384x64_1_0_0_1_n_n none x1 (maximumf (addf (Host.dotGeneral Cert.ReferenceIdeal.dot_S16384x64_S64x64_S16384x64_1_0_0_1_n_n none (Host.gather Cert.ReferenceIdeal.gather_S128x64_S16384x1_S16384x64_1_0_n_n_0_1_164 x2 (broadcastInDim Cert.ReferenceIdeal.S16384x1 ![0] Cert.ReferenceIdeal.Facts₀.bcast_S16384_S16384x1_0 (select (cmpi .slt x0 (broadcastInDim Cert.ReferenceIdeal.S16384 ![] Cert.ReferenceIdeal.Facts₀.bcast_S_S16384 (constantI Cert.ReferenceIdeal.S_ 32 0#32))) (addi x0 (broadcastInDim Cert.ReferenceIdeal.S16384 ![] Cert.ReferenceIdeal.Facts₀.bcast_S_S16384 (constantI Cert.ReferenceIdeal.S_ 32 128#32))) x0))) x3) (broadcastInDim Cert.ReferenceIdeal.S16384x64 ![0, 1] Cert.ReferenceIdeal.Facts₀.bcast_S1x64_S16384x64_0_1 (broadcastInDim Cert.ReferenceIdeal.S1x64 ![1] Cert.ReferenceIdeal.Facts₀.bcast_S64_S1x64_1 x4))) (broadcastInDim Cert.ReferenceIdeal.S16384x64 ![] Cert.ReferenceIdeal.Facts₀.bcast_S_S16384x64 (constant (F := F) Cert.ReferenceIdeal.S_ .f32 0x00000000#32)))) x5) (broadcastInDim Cert.ReferenceIdeal.S16384x64 ![0, 1] Cert.ReferenceIdeal.Facts₀.bcast_S1x64_S16384x64_0_1 (broadcastInDim Cert.ReferenceIdeal.S1x64 ![1] Cert.ReferenceIdeal.Facts₀.bcast_S64_S1x64_1 x6))) (broadcastInDim Cert.ReferenceIdeal.S16384x64 ![] Cert.ReferenceIdeal.Facts₀.bcast_S_S16384x64 (constant (F := F) Cert.ReferenceIdeal.S_ .f32 0x00000000#32)))) (constant (F := F) Cert.ReferenceIdeal.S_ .f32 0x00000000#32) Cert.ReferenceIdeal.Facts₀.reducesTo_S16384x64_S64_d0 Cert.ReferenceIdeal.Facts₀.h_S_
      = Chain.tail (Host.dotGeneral Cert.ReferenceIdeal.dot_S16384x16384_S16384x64_S16384x64_1_0_0_1_n_n none x1 (Chain.mid (Host.dotGeneral Cert.ReferenceIdeal.dot_S16384x16384_S16384x64_S16384x64_1_0_0_1_n_n none x1 (Chain.pre x0 x2 x3 x4)) x5 x6)) :=
  (tail_eq _).trans (congrArg Chain.tail (congrArg (fun y => (Host.dotGeneral Cert.ReferenceIdeal.dot_S16384x16384_S16384x64_S16384x64_1_0_0_1_n_n none x1 y))
    ((mid_eq _ x5 x6).trans (congrArg (fun y => Chain.mid y x5 x6) (congrArg (fun y => (Host.dotGeneral Cert.ReferenceIdeal.dot_S16384x16384_S16384x64_S16384x64_1_0_0_1_n_n none x1 y))
      (pre_eq x0 x2 x3 x4))))))

end Stretches

/-! ## The pooling of the reference -/

/-- The reference's pooling: the product of the 16384 × 16384 matrix `a` with the 16384 × 64 array `x`. -/
def poolRef (a : (⟨Cert.KernelIdeal.S16384x16384, .f32⟩ : BufTy).Contents (Elt Ideal)) (x : (⟨Cert.KernelIdeal.S16384x64, .f32⟩ : BufTy).Contents (Elt Ideal)) :
    (⟨Cert.KernelIdeal.S16384x64, .f32⟩ : BufTy).Contents (Elt Ideal) :=
  Host.dotGeneral (F := Ideal) (φ₁ := .f32) (φ₂ := .f32) Cert.ReferenceIdeal.dot_S16384x16384_S16384x64_S16384x64_1_0_0_1_n_n none a x

/-- Every weakly fair execution of the reference terminates with its result at the chain around the two poolings of
    the launch contents, and the arguments unchanged. -/
theorem run_value (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v19) = Chain.tail (poolRef (m' ((c.tc : Thread Cert.ReferenceIdeal.nD Cert.ReferenceIdeal.τ).loc Cert.ReferenceIdeal.main_arg1)) (Chain.mid (poolRef (m' ((c.tc : Thread Cert.ReferenceIdeal.nD Cert.ReferenceIdeal.τ).loc Cert.ReferenceIdeal.main_arg1)) (Chain.pre (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)))) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono
    (fun _ h c => ⟨(h c).1.trans (chain_eq (F := Ideal) _ _ _ _ _ _ _), (h c).2⟩)
    (Cert.ReferenceIdeal.Value.run (F := Ideal) m' ρ')

/-! ## The pooling at an index -/

/-- An entry of the reference's pooling: the sum over the contracted axis, cut into 8 tiles of 2048. -/
theorem poolRef_apply (a : (⟨Cert.KernelIdeal.S16384x16384, .f32⟩ : BufTy).Contents (Elt Ideal)) (x : (⟨Cert.KernelIdeal.S16384x64, .f32⟩ : BufTy).Contents (Elt Ideal))
    (r : Fin 16384) (d : Fin 64) :
    poolRef a x (ValueIdx.ix2 r d) = ∑ k : Fin 8, ∑ j : Fin 2048,
      a (ValueIdx.ix2 r ⟨k.val * 2048 + j.val, by omega⟩) * x (ValueIdx.ix2 ⟨k.val * 2048 + j.val, by omega⟩ d) := by
  unfold poolRef
  simp only [Host.dotGeneral]
  rw [Ideal.dotGeneral_apply, ← Equiv.sum_comp (ValueIdx.contrEquiv1 Cert.ReferenceIdeal.dot_S16384x16384_S16384x64_S16384x64_1_0_0_1_n_n 16384 rfl rfl).symm]
  refine (Cert.Proof.SumBlocks.sum_tiles _).trans ?_
  refine Finset.sum_congr rfl fun k _ => Finset.sum_congr rfl fun j _ => ?_
  have hk := ValueIdx.contrEquiv1_symm_val Cert.ReferenceIdeal.dot_S16384x16384_S16384x64_S16384x64_1_0_0_1_n_n 16384 rfl rfl ⟨k.val * 2048 + j.val, by omega⟩
  have el : Cert.ReferenceIdeal.dot_S16384x16384_S16384x64_S16384x64_1_0_0_1_n_n.lhsIdx (ValueIdx.ix2 r d) ((ValueIdx.contrEquiv1 Cert.ReferenceIdeal.dot_S16384x16384_S16384x64_S16384x64_1_0_0_1_n_n 16384 rfl rfl).symm ⟨k.val * 2048 + j.val, by omega⟩) = ValueIdx.ix2 r ⟨k.val * 2048 + j.val, by omega⟩ := funext fun i => Fin.ext (by
    match i with
    | ⟨0, _⟩ => exact Cert.ReferenceIdeal.Read.lhs_main_v12_0 _ _
    | ⟨1, _⟩ => exact (Cert.ReferenceIdeal.Read.lhs_main_v12_1 _ _).trans hk)
  have er : Cert.ReferenceIdeal.dot_S16384x16384_S16384x64_S16384x64_1_0_0_1_n_n.rhsIdx (ValueIdx.ix2 r d) ((ValueIdx.contrEquiv1 Cert.ReferenceIdeal.dot_S16384x16384_S16384x64_S16384x64_1_0_0_1_n_n 16384 rfl rfl).symm ⟨k.val * 2048 + j.val, by omega⟩) = ValueIdx.ix2 ⟨k.val * 2048 + j.val, by omega⟩ d := funext fun i => Fin.ext (by
    match i with
    | ⟨0, _⟩ => exact (Cert.ReferenceIdeal.Read.rhs_main_v12_0 _ _).trans hk
    | ⟨1, _⟩ => exact Cert.ReferenceIdeal.Read.rhs_main_v12_1 _ _)
  exact congrArg₂ (· * ·) (congrArg a el) (congrArg x er)

end Cert.Proof.Ref

end
-- ==== Proof.R0Sum.lean ====
/-
  Pooling step 1 over the extended reals: what the output array ends holding is the adjacency product itself.

  Row tile b of the output is written back once, after the eight reduction tiles of that row tile.  By induction on the
  point, the accumulator after reduction tile k of row tile b holds, at (p, q), the sum over k' <= k of the tile products
  sum_j a(2048 b + p, 2048 k' + j) * x(2048 k' + j, q): the first tile starts from the zero tile (0 + s = s), every
  later tile adds its product to what the tile before left.  After the eighth tile this is the whole contraction
  sum over all 16384 columns, grouped by tiles of 2048 — the product of the adjacency matrix with the features at
  (2048 b + p, q).  Only associativity and commutativity of + are used: no finiteness.
-/
import proofs.«112922_j28157805593353_1_alg».proof.Proof.R0Value
import proofs.«112922_j28157805593353_1_alg».proof.Proof.PayIdx
import proofs.«112922_j28157805593353_1_alg».proof.Proof.RefRun

-- membership in a rectangle of 2048 rows: the structural look recurses once per coordinate of the long axes
set_option maxRecDepth 16384

noncomputable section

namespace Cert.KernelIdeal.Pool0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx
open Cert.Proof.Ref (poolRef poolRef_apply)

variable [Cert.ReferenceIdeal.Facts]
variable (V : (c : Dev nD) → (b : Ref sig .tc) → Buf (Elt Ideal) ((c : Thread nD τ).loc b))

/-! ## The windows' index maps over the 64 points -/

theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-! ## The tiles, entry by entry -/

/-- The two input tiles at point `t`, at their literal types. -/
abbrev tileA (c : Dev nD) (t : Fin cfg0.N) : Vec Ideal S2048x2048 .f32 := iblk V c 0 t
abbrev tileX (c : Dev nD) (t : Fin cfg0.N) : Vec Ideal S2048x64 .f32 := iblk V c 1 t

/-- The adjacency tile at point `t`, entry (p, j): the matrix at row 2048 (t / 8) + p, column 2048 (t % 8) + j. -/
theorem tile_adj (c : Dev nD) (t : Fin cfg0.N) (p j : Fin 2048) (R C : Fin 16384)
    (hR : R.val = t.val / 8 * 2048 + p.val) (hC : C.val = t.val % 8 * 2048 + j.val) :
    tileA V c t (ix2 p j) = V c main_arg1 (ix2 R C) := by
  obtain ⟨e0, e1, -, -, -, -⟩ := idx_facts t
  unfold tileA iblk
  rw [View.read_apply]
  show V c main_arg1 _ = V c main_arg1 _
  congr 1
  funext a
  apply Fin.ext
  match a with
  | ⟨0, _⟩ => show win0_0.index t (0 : Fin 2) * 2048 + 1 * p.val = R.val; rw [e0, hR]; omega
  | ⟨1, _⟩ => show win0_0.index t (1 : Fin 2) * 2048 + 1 * j.val = C.val; rw [e1, hC]; omega

/-- The feature tile at point `t`, entry (j, q): the features at row 2048 (t % 8) + j, column q. -/
theorem tile_feat (c : Dev nD) (t : Fin cfg0.N) (j : Fin 2048) (q : Fin 64) (C : Fin 16384)
    (hC : C.val = t.val % 8 * 2048 + j.val) :
    tileX V c t (ix2 j q) = V c main_v11 (ix2 C q) := by
  obtain ⟨-, -, e2, e3, -, -⟩ := idx_facts t
  unfold tileX iblk
  rw [View.read_apply]
  show V c main_v11 _ = V c main_v11 _
  congr 1
  funext a
  apply Fin.ext
  match a with
  | ⟨0, _⟩ => show win0_1.index t (0 : Fin 2) * 2048 + 1 * j.val = C.val; rw [e2, hC]; omega
  | ⟨1, _⟩ => show win0_1.index t (1 : Fin 2) * 64 + 1 * q.val = q.val; rw [e3]; omega

/-! ## One tile product, and the running sum -/

/-- The k-th tile product of row R at column q: the contraction over the k-th tile of 2048 columns. -/
def term (a : Vec Ideal S16384x16384 .f32) (x : Vec Ideal S16384x64 .f32) (R : Fin 16384) (q : Fin 64) (k : ℕ) : EReal :=
  if hk : k < 8 then ∑ j : Fin 2048, a (ix2 R ⟨k * 2048 + j.val, by omega⟩) * x (ix2 ⟨k * 2048 + j.val, by omega⟩ q) else 0

/-- The tile product the body forms at point `t` is that term, for the point's row tile and reduction tile. -/
theorem prod_eq (c : Dev nD) (t : Fin cfg0.N) (p : Fin 2048) (q : Fin 64) (R : Fin 16384) (hR : R.val = t.val / 8 * 2048 + p.val) :
    ∑ j : Fin 2048, tileA V c t (ix2 p j) * tileX V c t (ix2 j q)
      = term (V c main_arg1) (V c main_v11) R q (t.val % 8) := by
  have hk : t.val % 8 < 8 := Nat.mod_lt _ (by decide)
  unfold term
  rw [dif_pos hk]
  refine Finset.sum_congr rfl fun j _ => ?_
  rw [tile_adj V c t p j R ⟨t.val % 8 * 2048 + j.val, by omega⟩ hR rfl, tile_feat V c t j q ⟨t.val % 8 * 2048 + j.val, by omega⟩ rfl]

/-- One step of the accumulation, at a point `t` held as a variable: the payload over an accumulator `xs` whose entry
    (p, q) is the sum of the first `t % 8` tile products leaves the sum of the first `t % 8 + 1`. -/
theorem step (c : Dev nD) (t : Fin cfg0.N) (p : Fin 2048) (q : Fin 64) (R : Fin 16384) (hR : R.val = t.val / 8 * 2048 + p.val)
    (xs : Vec Ideal S2048x64 .f32)
    (hxs : xs (ix2 p q) = ∑ k ∈ Finset.range (t.val % 8), term (V c main_arg1) (V c main_v11) R q k) :
    Cert.KernelIdeal.Gen.k0_pay2 (F := Ideal) (tileA V c t) (tileX V c t) xs (ix2 p q)
      = ∑ k ∈ Finset.range (t.val % 8 + 1), term (V c main_arg1) (V c main_v11) R q k := by
  refine (Cert.Proof.Pay.pay02_apply (tileA V c t) (tileX V c t) xs p q).trans ?_
  rw [hxs, prod_eq V c t p q R hR, Finset.sum_range_succ]

/-- THE RUNNING SUM: after point `t` the accumulator holds, at (p, q), the first `t % 8 + 1` tile products of its row tile. -/
theorem acc_apply (c : Dev nD) : ∀ (n : ℕ) (t : Fin cfg0.N), t.val = n → ∀ (p : Fin 2048) (q : Fin 64) (R : Fin 16384),
    R.val = t.val / 8 * 2048 + p.val →
    (outsAt V c t.val t.isLt).2 (ix2 p q) = ∑ k ∈ Finset.range (t.val % 8 + 1), term (V c main_arg1) (V c main_v11) R q k := by
  intro n
  induction n with
  | zero =>
    intro t ht p q R hR
    have h0 : t.val % 8 = 0 := by omega
    have h1 : ¬t.val % 8 = 7 := by omega
    rw [outsAt_first V c t h0 h1]
    dsimp only
    unfold accFirstAt
    rw [accFirst_eq]
    exact step V c t p q R hR _ (by rw [h0, Finset.range_zero, Finset.sum_empty]; exact Cert.Proof.Pay.pay01_apply p q)
  | succ n ih =>
    intro t ht p q R hR
    have hN : t.val < 64 := lt_of_lt_of_eq t.isLt (show cfg0.N = 64 from N_0)
    by_cases h0 : t.val % 8 = 0
    · have h1 : ¬t.val % 8 = 7 := by omega
      rw [outsAt_first V c t h0 h1]
      dsimp only
      unfold accFirstAt
      rw [accFirst_eq]
      exact step V c t p q R hR _ (by rw [h0, Finset.range_zero, Finset.sum_empty]; exact Cert.Proof.Pay.pay01_apply p q)
    · -- what the point before left: the induction hypothesis at position t - 1, in the same row tile
      have hpl : t.val - 1 < cfg0.N := Nat.lt_of_le_of_lt (Nat.sub_le _ _) t.isLt
      have key : (outsAt V c (t.val - 1) hpl).2 (ix2 p q) = ∑ k ∈ Finset.range (t.val % 8), term (V c main_arg1) (V c main_v11) R q k := by
        have h := ih ⟨t.val - 1, hpl⟩ (by show t.val - 1 = n; omega) p q R (by show R.val = (t.val - 1) / 8 * 2048 + p.val; rw [hR]; congr 2; omega)
        have e : (t.val - 1) % 8 + 1 = t.val % 8 := by omega
        rw [← e]
        exact h
      by_cases h1 : t.val % 8 = 7
      · rw [outsAt_last V c t h0 h1]
        dsimp only
        unfold accLastAt
        rw [accLast_eq]
        exact step V c t p q R hR _ key
      · rw [outsAt_mid V c t h0 h1]
        dsimp only
        unfold accMidAt
        rw [accMid_eq]
        exact step V c t p q R hR _ key

end Cert.KernelIdeal.Pool0

end
-- ==== Proof.R0Final.lean ====
/-
  Pooling step 1: the output array after the region.  Each row tile of the output is written back exactly once, at
  its last reduction tile, and what is written is a copy of the accumulator after its eighth tile product: the whole
  contraction over the 16384 columns.  The eight row tiles cover the array, so the array ends holding the adjacency
  product of the features, entry by entry.
-/
import proofs.«112922_j28157805593353_1_alg».proof.Proof.R0Sum

-- membership in a rectangle of 2048 rows: the structural look recurses once per coordinate of the long axes
set_option maxRecDepth 16384

noncomputable section

namespace Cert.KernelIdeal.Pool0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx
open Cert.Proof.Ref (poolRef poolRef_apply)

variable [Cert.ReferenceIdeal.Facts]
variable (V : (c : Dev nD) → (b : Ref sig .tc) → Buf (Elt Ideal) ((c : Thread nD τ).loc b))

/-- The output tile stored at a last reduction tile, entry (p, q): the adjacency product at row 2048 (t / 8) + p. -/
theorem out_apply (c : Dev nD) (t : Fin cfg0.N) (h0 : ¬t.val % 8 = 0) (h7 : t.val % 8 = 7) (p : Fin 2048) (q : Fin 64)
    (R : Fin 16384) (hR : R.val = t.val / 8 * 2048 + p.val) :
    (outsAt V c t.val t.isLt).1 (ix2 p q) = poolRef (V c main_arg1) (V c main_v11) (ix2 R q) := by
  have hN : t.val < 64 := lt_of_lt_of_eq t.isLt (show cfg0.N = 64 from N_0)
  have hpl : t.val - 1 < cfg0.N := Nat.lt_of_le_of_lt (Nat.sub_le _ _) t.isLt
  have key : (outsAt V c (t.val - 1) hpl).2 (ix2 p q) = ∑ k ∈ Finset.range (t.val % 8), term (V c main_arg1) (V c main_v11) R q k := by
    have h := acc_apply V c (t.val - 1) ⟨t.val - 1, hpl⟩ rfl p q R (by show R.val = (t.val - 1) / 8 * 2048 + p.val; rw [hR]; congr 2; omega)
    have e : (t.val - 1) % 8 + 1 = t.val % 8 := by omega
    rw [← e]
    exact h
  have e8 : t.val % 8 + 1 = 8 := by omega
  rw [outsAt_last V c t h0 h7]
  dsimp only
  unfold outLastAt
  rw [outLast_eq, step V c t p q R hR _ key, poolRef_apply, e8, Finset.sum_range]
  refine Finset.sum_congr rfl fun k _ => ?_
  unfold term
  rw [dif_pos k.isLt]

/-- An index of the output array is in point `t`'s block iff each coordinate is in the block's range on its axis. -/
theorem mem_blk (t : Fin cfg0.N) (i : S16384x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v12).slice (win0_2.rect t)).set ↔ _
  rw [View.set_slice_whole, Rect.mem_set_unit]
  exact Iff.rfl

/-- What a last reduction tile writes back is its block of the adjacency product. -/
theorem flushed_eq (c : Dev nD) (t : Fin cfg0.N) (hf : (cfg0.win 2).flush t = true) :
    (dat V c).flushed 2 t = ((cfg0.win 2).blk t).view.read (Elt Ideal) (poolRef (V c main_arg1) (V c main_v11)) := by
  have h7 : t.val % 8 = 7 := (flush0_2 t).mp hf
  have h0 : ¬t.val % 8 = 0 := by omega
  have hN : t.val < 64 := lt_of_lt_of_eq t.isLt (show cfg0.N = 64 from N_0)
  obtain ⟨-, -, -, -, e4, e5⟩ := idx_facts t
  show (cfg0.win 2).cut (grid0.coords t) ((dat V c).after 2 t) = _
  rw [after2]
  funext y
  show (outsAt V c t.val t.isLt).1 y = poolRef (V c main_arg1) (V c main_v11) (((cfg0.win 2).blk t).view.emb y)
  obtain ⟨p, q, rfl⟩ : ∃ (p : Fin 2048) (q : Fin 64), y = ix2 p q := ⟨y 0, y 1, eq_ix2 y⟩
  have hemb : ((cfg0.win 2).blk t).view.emb (ix2 p q) = ix2 (⟨t.val / 8 * 2048 + p.val, by omega⟩ : Fin 16384) q := by
    funext a
    apply Fin.ext
    match a with
    | ⟨0, _⟩ => show win0_2.index t (0 : Fin 2) * 2048 + 1 * p.val = t.val / 8 * 2048 + p.val; rw [e4]; omega
    | ⟨1, _⟩ => show win0_2.index t (1 : Fin 2) * 64 + 1 * q.val = q.val; rw [e5]; omega
  rw [hemb]
  exact out_apply V c t h0 h7 p q _ rfl

/-- THE OUTPUT ARRAY after the region: the adjacency product of the features as the region found them. -/
theorem final (c : Dev nD) : (dat V c).arrAt 2 cfg0.N = poolRef (V c main_arg1) (V c main_v11) :=
  (dat V c).arrAt_eq_of_cover 2 _ (flushed_eq V c) fun i => by
    have hi0 : (i 0).val < 16384 := (i 0).isLt
    have hi1 : (i 1).val < 64 := (i 1).isLt
    obtain ⟨t, ht⟩ : ∃ t : Fin cfg0.N, t.val = 8 * ((i 0).val / 2048) + 7 :=
      ⟨⟨8 * ((i 0).val / 2048) + 7, by rw [show cfg0.N = 64 from N_0]; omega⟩, rfl⟩
    obtain ⟨-, -, -, -, e4, e5⟩ := idx_facts t
    refine ⟨t, (flush0_2 t).mpr (by rw [ht]; omega), ?_⟩
    rw [mem_blk]
    intro a
    match a with
    | ⟨0, _⟩ => show win0_2.index t (0 : Fin 2) * 2048 ≤ (i 0).val ∧ (i 0).val < win0_2.index t (0 : Fin 2) * 2048 + 2048; rw [e4, ht]; omega
    | ⟨1, _⟩ => show win0_2.index t (1 : Fin 2) * 64 ≤ (i 1).val ∧ (i 1).val < win0_2.index t (1 : Fin 2) * 64 + 64; rw [e5]; omega

end Cert.KernelIdeal.Pool0

end
-- ==== Proof.R1Value.lean ====
/-
  Pooling step 2: the values.  What each case leaves is the body's arithmetic applied to the tiles it loaded: a middle
  or last reduction tile leaves "what the accumulator held, plus the tile product"; a first reduction tile leaves
  "the zero tile, plus the tile product"; and at a last reduction tile the output tile is a copy of the accumulator.
-/
import proofs.«112922_j28157805593353_1_alg».proof.Proof.R1Body
import Idealize.ShloMosaic.Lib.Pipeline.Value
import Idealize.ShloMosaic.Lib.ValueIdx

-- membership in a rectangle of 2048 rows: the structural look recurses once per coordinate of the long axes
set_option maxRecDepth 16384

noncomputable section

namespace Cert.KernelIdeal.Pool1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Middle reduction tile: one covering store of the payload, whose loads read the whole buffers. -/
theorem accMid_eq (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : ¬isLast i)
    (x0 : Vec F S2048x2048 .f32) (x1 : Vec F S2048x64 .f32) (xs : Vec F S2048x64 .f32) :
    accMid c i arg2 harg2 arg3 harg3 arg4 harg4 arg5 harg5 hc0 hc1 x0 x1 xs = k1_pay2 x0 x1 xs := by
  unfold accMid
  rw [View.read_writes_eq_canon _ _ _ (accMid_cover c i arg2 harg2 arg3 harg3 arg4 harg4 arg5 harg5 hc0 hc1 x0 x1 xs)]
  unfold runMid
  dsimp only
  rw [View.canon_unit_zero hz]
  simp only [View.readAt_eq_ld, harg2.read_unread, harg3.read_unread, harg5.read_unread, View.ld_unit_zero (S := S2048x2048) hz, View.ld_unit_zero (S := S2048x64) hz]

/-- Last reduction tile, the accumulator: the same store. -/
theorem accLast_eq (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) :
    accLast c i arg2 harg2 arg3 harg3 arg4 harg4 arg5 harg5 hc0 hc1 x0 x1 xs = k1_pay2 x0 x1 xs := by
  unfold accLast
  rw [View.read_writes_eq_canon _ _ _ (accLast_cover c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.ld_unit_zero (S := S2048x2048) hz, View.ld_unit_zero (S := S2048x64) hz]

/-- Last reduction tile, the output tile: the accumulator just stored, read back and stored whole. -/
theorem outLast_eq (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : ¬isFirst i) (hc1 : isLast i)
    (x0 : Vec F S2048x2048 .f32) (x1 : Vec F S2048x64 .f32) (xs : Vec F S2048x64 .f32) :
    outLast c i arg2 harg2 arg3 harg3 arg4 harg4 arg5 harg5 hc0 hc1 x0 x1 xs = k1_pay2 x0 x1 xs := by
  unfold outLast
  rw [View.read_writes_eq_canon _ _ _ (outLast_cover c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.ld_unit_zero (S := S2048x2048) hz, View.ld_unit_zero (S := S2048x64) hz, View.readCov_unit_zero (S := S2048x64) _ hz]

/-- First reduction tile: the zero tile is stored and read back, then the payload over it is stored. -/
theorem accFirst_eq (c : Dev nD) (i : grid1.Coords) (arg2 : Memref sig .tc .vmem S2048x2048 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (hc0 : isFirst i) (hc1 : ¬isLast i)
    (x0 : Vec F S2048x2048 .f32) (x1 : Vec F S2048x64 .f32) :
    accFirst c i arg2 harg2 arg3 harg3 arg4 harg4 arg5 harg5 hc0 hc1 x0 x1 = k1_pay2 x0 x1 (k1_pay1 (F := F)) := by
  unfold accFirst
  rw [View.read_writes_eq_canon _ _ _ (accFirst_cover c i arg2 harg2 arg3 harg3 arg4 harg4 arg5 harg5 hc0 hc1 x0 x1)]
  unfold runFirst
  dsimp only
  sl_unfold_words
  rw [View.canon_cons_unit_zero (S := S2048x64) hz, View.readCov_unit_zero (S := S2048x64) _ hz]
  simp only [View.readAt_eq_ld, harg2.read_unread, harg3.read_unread, View.ld_unit_zero (S := S2048x2048) hz, View.ld_unit_zero (S := S2048x64) hz]

end Cert.KernelIdeal.Pool1

end
-- ==== Proof.R1Sum.lean ====
/-
  Pooling step 2 over the extended reals: what the output array ends holding is the adjacency product itself.

  Row tile b of the output is written back once, after the eight reduction tiles of that row tile.  By induction on the
  point, the accumulator after reduction tile k of row tile b holds, at (p, q), the sum over k' <= k of the tile products
  sum_j a(2048 b + p, 2048 k' + j) * x(2048 k' + j, q): the first tile starts from the zero tile (0 + s = s), every
  later tile adds its product to what the tile before left.  After the eighth tile this is the whole contraction
  sum over all 16384 columns, grouped by tiles of 2048 — the product of the adjacency matrix with the features at
  (2048 b + p, q).  Only associativity and commutativity of + are used: no finiteness.
-/
import proofs.«112922_j28157805593353_1_alg».proof.Proof.R1Value
import proofs.«112922_j28157805593353_1_alg».proof.Proof.PayIdx
import proofs.«112922_j28157805593353_1_alg».proof.Proof.RefRun

-- membership in a rectangle of 2048 rows: the structural look recurses once per coordinate of the long axes
set_option maxRecDepth 16384

noncomputable section

namespace Cert.KernelIdeal.Pool1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx
open Cert.Proof.Ref (poolRef poolRef_apply)

variable [Cert.ReferenceIdeal.Facts]
variable (V : (c : Dev nD) → (b : Ref sig .tc) → Buf (Elt Ideal) ((c : Thread nD τ).loc b))

/-! ## The windows' index maps over the 64 points -/

theorem idx_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-! ## The tiles, entry by entry -/

/-- The two input tiles at point `t`, at their literal types. -/
abbrev tileA (c : Dev nD) (t : Fin cfg1.N) : Vec Ideal S2048x2048 .f32 := iblk V c 0 t
abbrev tileX (c : Dev nD) (t : Fin cfg1.N) : Vec Ideal S2048x64 .f32 := iblk V c 1 t

/-- The adjacency tile at point `t`, entry (p, j): the matrix at row 2048 (t / 8) + p, column 2048 (t % 8) + j. -/
theorem tile_adj (c : Dev nD) (t : Fin cfg1.N) (p j : Fin 2048) (R C : Fin 16384)
    (hR : R.val = t.val / 8 * 2048 + p.val) (hC : C.val = t.val % 8 * 2048 + j.val) :
    tileA V c t (ix2 p j) = V c main_arg1 (ix2 R C) := by
  obtain ⟨e0, e1, -, -, -, -⟩ := idx_facts t
  unfold tileA iblk
  rw [View.read_apply]
  show V c main_arg1 _ = V c main_arg1 _
  congr 1
  funext a
  apply Fin.ext
  match a with
  | ⟨0, _⟩ => show win1_0.index t (0 : Fin 2) * 2048 + 1 * p.val = R.val; rw [e0, hR]; omega
  | ⟨1, _⟩ => show win1_0.index t (1 : Fin 2) * 2048 + 1 * j.val = C.val; rw [e1, hC]; omega

/-- The feature tile at point `t`, entry (j, q): the features at row 2048 (t % 8) + j, column q. -/
theorem tile_feat (c : Dev nD) (t : Fin cfg1.N) (j : Fin 2048) (q : Fin 64) (C : Fin 16384)
    (hC : C.val = t.val % 8 * 2048 + j.val) :
    tileX V c t (ix2 j q) = V c main_v17 (ix2 C q) := by
  obtain ⟨-, -, e2, e3, -, -⟩ := idx_facts t
  unfold tileX iblk
  rw [View.read_apply]
  show V c main_v17 _ = V c main_v17 _
  congr 1
  funext a
  apply Fin.ext
  match a with
  | ⟨0, _⟩ => show win1_1.index t (0 : Fin 2) * 2048 + 1 * j.val = C.val; rw [e2, hC]; omega
  | ⟨1, _⟩ => show win1_1.index t (1 : Fin 2) * 64 + 1 * q.val = q.val; rw [e3]; omega

/-! ## One tile product, and the running sum -/

/-- The k-th tile product of row R at column q: the contraction over the k-th tile of 2048 columns. -/
def term (a : Vec Ideal S16384x16384 .f32) (x : Vec Ideal S16384x64 .f32) (R : Fin 16384) (q : Fin 64) (k : ℕ) : EReal :=
  if hk : k < 8 then ∑ j : Fin 2048, a (ix2 R ⟨k * 2048 + j.val, by omega⟩) * x (ix2 ⟨k * 2048 + j.val, by omega⟩ q) else 0

/-- The tile product the body forms at point `t` is that term, for the point's row tile and reduction tile. -/
theorem prod_eq (c : Dev nD) (t : Fin cfg1.N) (p : Fin 2048) (q : Fin 64) (R : Fin 16384) (hR : R.val = t.val / 8 * 2048 + p.val) :
    ∑ j : Fin 2048, tileA V c t (ix2 p j) * tileX V c t (ix2 j q)
      = term (V c main_arg1) (V c main_v17) R q (t.val % 8) := by
  have hk : t.val % 8 < 8 := Nat.mod_lt _ (by decide)
  unfold term
  rw [dif_pos hk]
  refine Finset.sum_congr rfl fun j _ => ?_
  rw [tile_adj V c t p j R ⟨t.val % 8 * 2048 + j.val, by omega⟩ hR rfl, tile_feat V c t j q ⟨t.val % 8 * 2048 + j.val, by omega⟩ rfl]

/-- One step of the accumulation, at a point `t` held as a variable: the payload over an accumulator `xs` whose entry
    (p, q) is the sum of the first `t % 8` tile products leaves the sum of the first `t % 8 + 1`. -/
theorem step (c : Dev nD) (t : Fin cfg1.N) (p : Fin 2048) (q : Fin 64) (R : Fin 16384) (hR : R.val = t.val / 8 * 2048 + p.val)
    (xs : Vec Ideal S2048x64 .f32)
    (hxs : xs (ix2 p q) = ∑ k ∈ Finset.range (t.val % 8), term (V c main_arg1) (V c main_v17) R q k) :
    Cert.KernelIdeal.Gen.k1_pay2 (F := Ideal) (tileA V c t) (tileX V c t) xs (ix2 p q)
      = ∑ k ∈ Finset.range (t.val % 8 + 1), term (V c main_arg1) (V c main_v17) R q k := by
  refine (Cert.Proof.Pay.pay12_apply (tileA V c t) (tileX V c t) xs p q).trans ?_
  rw [hxs, prod_eq V c t p q R hR, Finset.sum_range_succ]

/-- THE RUNNING SUM: after point `t` the accumulator holds, at (p, q), the first `t % 8 + 1` tile products of its row tile. -/
theorem acc_apply (c : Dev nD) : ∀ (n : ℕ) (t : Fin cfg1.N), t.val = n → ∀ (p : Fin 2048) (q : Fin 64) (R : Fin 16384),
    R.val = t.val / 8 * 2048 + p.val →
    (outsAt V c t.val t.isLt).2 (ix2 p q) = ∑ k ∈ Finset.range (t.val % 8 + 1), term (V c main_arg1) (V c main_v17) R q k := by
  intro n
  induction n with
  | zero =>
    intro t ht p q R hR
    have h0 : t.val % 8 = 0 := by omega
    have h1 : ¬t.val % 8 = 7 := by omega
    rw [outsAt_first V c t h0 h1]
    dsimp only
    unfold accFirstAt
    rw [accFirst_eq]
    exact step V c t p q R hR _ (by rw [h0, Finset.range_zero, Finset.sum_empty]; exact Cert.Proof.Pay.pay11_apply p q)
  | succ n ih =>
    intro t ht p q R hR
    have hN : t.val < 64 := lt_of_lt_of_eq t.isLt (show cfg1.N = 64 from N_1)
    by_cases h0 : t.val % 8 = 0
    · have h1 : ¬t.val % 8 = 7 := by omega
      rw [outsAt_first V c t h0 h1]
      dsimp only
      unfold accFirstAt
      rw [accFirst_eq]
      exact step V c t p q R hR _ (by rw [h0, Finset.range_zero, Finset.sum_empty]; exact Cert.Proof.Pay.pay11_apply p q)
    · -- what the point before left: the induction hypothesis at position t - 1, in the same row tile
      have hpl : t.val - 1 < cfg1.N := Nat.lt_of_le_of_lt (Nat.sub_le _ _) t.isLt
      have key : (outsAt V c (t.val - 1) hpl).2 (ix2 p q) = ∑ k ∈ Finset.range (t.val % 8), term (V c main_arg1) (V c main_v17) R q k := by
        have h := ih ⟨t.val - 1, hpl⟩ (by show t.val - 1 = n; omega) p q R (by show R.val = (t.val - 1) / 8 * 2048 + p.val; rw [hR]; congr 2; omega)
        have e : (t.val - 1) % 8 + 1 = t.val % 8 := by omega
        rw [← e]
        exact h
      by_cases h1 : t.val % 8 = 7
      · rw [outsAt_last V c t h0 h1]
        dsimp only
        unfold accLastAt
        rw [accLast_eq]
        exact step V c t p q R hR _ key
      · rw [outsAt_mid V c t h0 h1]
        dsimp only
        unfold accMidAt
        rw [accMid_eq]
        exact step V c t p q R hR _ key

end Cert.KernelIdeal.Pool1

end
-- ==== Proof.R1Final.lean ====
/-
  Pooling step 2: the output array after the region.  Each row tile of the output is written back exactly once, at
  its last reduction tile, and what is written is a copy of the accumulator after its eighth tile product: the whole
  contraction over the 16384 columns.  The eight row tiles cover the array, so the array ends holding the adjacency
  product of the features, entry by entry.
-/
import proofs.«112922_j28157805593353_1_alg».proof.Proof.R1Sum

-- membership in a rectangle of 2048 rows: the structural look recurses once per coordinate of the long axes
set_option maxRecDepth 16384

noncomputable section

namespace Cert.KernelIdeal.Pool1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx
open Cert.Proof.Ref (poolRef poolRef_apply)

variable [Cert.ReferenceIdeal.Facts]
variable (V : (c : Dev nD) → (b : Ref sig .tc) → Buf (Elt Ideal) ((c : Thread nD τ).loc b))

/-- The output tile stored at a last reduction tile, entry (p, q): the adjacency product at row 2048 (t / 8) + p. -/
theorem out_apply (c : Dev nD) (t : Fin cfg1.N) (h0 : ¬t.val % 8 = 0) (h7 : t.val % 8 = 7) (p : Fin 2048) (q : Fin 64)
    (R : Fin 16384) (hR : R.val = t.val / 8 * 2048 + p.val) :
    (outsAt V c t.val t.isLt).1 (ix2 p q) = poolRef (V c main_arg1) (V c main_v17) (ix2 R q) := by
  have hN : t.val < 64 := lt_of_lt_of_eq t.isLt (show cfg1.N = 64 from N_1)
  have hpl : t.val - 1 < cfg1.N := Nat.lt_of_le_of_lt (Nat.sub_le _ _) t.isLt
  have key : (outsAt V c (t.val - 1) hpl).2 (ix2 p q) = ∑ k ∈ Finset.range (t.val % 8), term (V c main_arg1) (V c main_v17) R q k := by
    have h := acc_apply V c (t.val - 1) ⟨t.val - 1, hpl⟩ rfl p q R (by show R.val = (t.val - 1) / 8 * 2048 + p.val; rw [hR]; congr 2; omega)
    have e : (t.val - 1) % 8 + 1 = t.val % 8 := by omega
    rw [← e]
    exact h
  have e8 : t.val % 8 + 1 = 8 := by omega
  rw [outsAt_last V c t h0 h7]
  dsimp only
  unfold outLastAt
  rw [outLast_eq, step V c t p q R hR _ key, poolRef_apply, e8, Finset.sum_range]
  refine Finset.sum_congr rfl fun k _ => ?_
  unfold term
  rw [dif_pos k.isLt]

/-- An index of the output array is in point `t`'s block iff each coordinate is in the block's range on its axis. -/
theorem mem_blk (t : Fin cfg1.N) (i : S16384x64.Idx) :
    i ∈ ((cfg1.win 2).blk t).view.set ↔ ∀ a : Fin 2, win1_2.index t a * S2048x64.size a ≤ (i a).val ∧ (i a).val < win1_2.index t a * S2048x64.size a + S2048x64.size a := by
  show i ∈ ((View.whole main_v18).slice (win1_2.rect t)).set ↔ _
  rw [View.set_slice_whole, Rect.mem_set_unit]
  exact Iff.rfl

/-- What a last reduction tile writes back is its block of the adjacency product. -/
theorem flushed_eq (c : Dev nD) (t : Fin cfg1.N) (hf : (cfg1.win 2).flush t = true) :
    (dat V c).flushed 2 t = ((cfg1.win 2).blk t).view.read (Elt Ideal) (poolRef (V c main_arg1) (V c main_v17)) := by
  have h7 : t.val % 8 = 7 := (flush1_2 t).mp hf
  have h0 : ¬t.val % 8 = 0 := by omega
  have hN : t.val < 64 := lt_of_lt_of_eq t.isLt (show cfg1.N = 64 from N_1)
  obtain ⟨-, -, -, -, e4, e5⟩ := idx_facts t
  show (cfg1.win 2).cut (grid1.coords t) ((dat V c).after 2 t) = _
  rw [after2]
  funext y
  show (outsAt V c t.val t.isLt).1 y = poolRef (V c main_arg1) (V c main_v17) (((cfg1.win 2).blk t).view.emb y)
  obtain ⟨p, q, rfl⟩ : ∃ (p : Fin 2048) (q : Fin 64), y = ix2 p q := ⟨y 0, y 1, eq_ix2 y⟩
  have hemb : ((cfg1.win 2).blk t).view.emb (ix2 p q) = ix2 (⟨t.val / 8 * 2048 + p.val, by omega⟩ : Fin 16384) q := by
    funext a
    apply Fin.ext
    match a with
    | ⟨0, _⟩ => show win1_2.index t (0 : Fin 2) * 2048 + 1 * p.val = t.val / 8 * 2048 + p.val; rw [e4]; omega
    | ⟨1, _⟩ => show win1_2.index t (1 : Fin 2) * 64 + 1 * q.val = q.val; rw [e5]; omega
  rw [hemb]
  exact out_apply V c t h0 h7 p q _ rfl

/-- THE OUTPUT ARRAY after the region: the adjacency product of the features as the region found them. -/
theorem final (c : Dev nD) : (dat V c).arrAt 2 cfg1.N = poolRef (V c main_arg1) (V c main_v17) :=
  (dat V c).arrAt_eq_of_cover 2 _ (flushed_eq V c) fun i => by
    have hi0 : (i 0).val < 16384 := (i 0).isLt
    have hi1 : (i 1).val < 64 := (i 1).isLt
    obtain ⟨t, ht⟩ : ∃ t : Fin cfg1.N, t.val = 8 * ((i 0).val / 2048) + 7 :=
      ⟨⟨8 * ((i 0).val / 2048) + 7, by rw [show cfg1.N = 64 from N_1]; omega⟩, rfl⟩
    obtain ⟨-, -, -, -, e4, e5⟩ := idx_facts t
    refine ⟨t, (flush1_2 t).mpr (by rw [ht]; omega), ?_⟩
    rw [mem_blk]
    intro a
    match a with
    | ⟨0, _⟩ => show win1_2.index t (0 : Fin 2) * 2048 ≤ (i 0).val ∧ (i 0).val < win1_2.index t (0 : Fin 2) * 2048 + 2048; rw [e4, ht]; omega
    | ⟨1, _⟩ => show win1_2.index t (1 : Fin 2) * 64 ≤ (i 1).val ∧ (i 1).val < win1_2.index t (1 : Fin 2) * 64 + 64; rw [e5]; omega

end Cert.KernelIdeal.Pool1

end
-- ==== Proof.Value.lean ====
/-
  The result, as one function of the arguments.  Reading the last valuation back through the items: the closing row
  sum of what pooling step 2 leaves; pooling step 2 leaves the adjacency product of its features; those features are the
  second dense layer and rectifier of what pooling step 1 leaves; pooling step 1 leaves the adjacency product of its
  features; and those are the gathered embeddings through the first dense layer and rectifier.  The adjacency matrix
  reaches both pooling steps as launched.
-/
import proofs.«112922_j28157805593353_1_alg».proof.Proof.Ends
import proofs.«112922_j28157805593353_1_alg».proof.Proof.R0Final
import proofs.«112922_j28157805593353_1_alg».proof.Proof.R1Final
import proofs.«112922_j28157805593353_1_alg».proof.Proof.Chain
import Idealize.ShloMosaic.Lib.StableHlo.Run

-- membership in a rectangle of 2048 rows: the structural look recurses once per coordinate of the long axes
set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Ref (poolRef)
open Cert.KernelIdeal (Chain.pre Chain.mid Chain.tail)

variable [Cert.ReferenceIdeal.Facts]
variable (m : (ℓ : Loc nD τ sig) → Buf (Elt Ideal) ℓ)

/-- The features pooling step 1 is entered with: embeddings gathered at the wrapped indices, first dense layer, rectifier. -/
theorem stage_pre (c : Dev nD) : VA m c main_v11
    = Cert.KernelIdeal.Chain.pre (m ((c : Thread nD τ).loc main_arg0)) (m ((c : Thread nD τ).loc main_arg2)) (m ((c : Thread nD τ).loc main_arg3)) (m ((c : Thread nD τ).loc main_arg4)) := by
  show StableHlo.after hostOps0_1 (StableHlo.after hostOps0 (fun b => m (c, b))) (Proc.devRef .tc main_v11) = _
  after_results
  rfl

/-- The adjacency matrix at pooling step 1's entry is the launch contents. -/
theorem VA_adj (c : Dev nD) : VA m c main_arg1 = m ((c : Thread nD τ).loc main_arg1) :=
  calc VA m c main_arg1 = W1 m c main_arg1 := StableHlo.after_of_writes_sub hostOps0_1 _ hostOps0_1_writes (by decide)
    _ = W0 m c main_arg1 := StableHlo.after_of_writes_sub hostOps0 _ hostOps0_writes (by decide)
    _ = m ((c : Thread nD τ).loc main_arg1) := rfl

/-- The second dense layer's weights and bias reach it as launched: pooling step 1 changes only its output array. -/
theorem W3_w2 (c : Dev nD) : W3 m c main_arg5 = m ((c : Thread nD τ).loc main_arg5) :=
  calc W3 m c main_arg5 = W2 m c main_arg5 := W3_of_ne m c main_arg5 (by decide)
    _ = W1 m c main_arg5 := StableHlo.after_of_writes_sub hostOps0_1 _ hostOps0_1_writes (by decide)
    _ = W0 m c main_arg5 := StableHlo.after_of_writes_sub hostOps0 _ hostOps0_writes (by decide)
    _ = m ((c : Thread nD τ).loc main_arg5) := rfl
theorem W3_b2 (c : Dev nD) : W3 m c main_arg6 = m ((c : Thread nD τ).loc main_arg6) :=
  calc W3 m c main_arg6 = W2 m c main_arg6 := W3_of_ne m c main_arg6 (by decide)
    _ = W1 m c main_arg6 := StableHlo.after_of_writes_sub hostOps0_1 _ hostOps0_1_writes (by decide)
    _ = W0 m c main_arg6 := StableHlo.after_of_writes_sub hostOps0 _ hostOps0_writes (by decide)
    _ = m ((c : Thread nD τ).loc main_arg6) := rfl

/-- The features pooling step 2 is entered with: second dense layer and rectifier of what pooling step 1 left. -/
theorem stage_mid (c : Dev nD) : VB m c main_v17
    = Cert.KernelIdeal.Chain.mid (W3 m c main_v12) (W3 m c main_arg5) (W3 m c main_arg6) := by
  show StableHlo.after hostOps1_1 (StableHlo.after hostOps1 (W3 m c)) (Proc.devRef .tc main_v17) = _
  after_results
  rfl

/-- The result: the row sum of what pooling step 2 left. -/
theorem stage_tail (c : Dev nD) : W7 m c main_v19 = Cert.KernelIdeal.Chain.tail (W6 m c main_v18) := by
  show StableHlo.after hostOps2 (W6 m c) (Proc.devRef .tc main_v19) = _
  after_results
  rfl

/-- THE RESULT as one function of the argument arrays. -/
theorem result_eq (c : Dev nD) : W7 m c main_v19
    = Cert.KernelIdeal.Chain.tail (poolRef (m ((c : Thread nD τ).loc main_arg1)) (Cert.KernelIdeal.Chain.mid (poolRef (m ((c : Thread nD τ).loc main_arg1))
        (Cert.KernelIdeal.Chain.pre (m ((c : Thread nD τ).loc main_arg0)) (m ((c : Thread nD τ).loc main_arg2)) (m ((c : Thread nD τ).loc main_arg3)) (m ((c : Thread nD τ).loc main_arg4)))) (m ((c : Thread nD τ).loc main_arg5)) (m ((c : Thread nD τ).loc main_arg6)))) := by
  have e6 : W6 m c main_v18 = poolRef (VB m c main_arg1) (VB m c main_v17) := (W6_arr m c 2).trans (Pool1.final (VB m) c)
  have e3 : W3 m c main_v12 = poolRef (VA m c main_arg1) (VA m c main_v11) := (W3_arr m c 2).trans (Pool0.final (VA m) c)
  rw [stage_tail, e6, VB_adj, stage_mid, e3, VA_adj, stage_pre, W3_w2, W3_b2]

/-- THE RUN, READ: the result buffer at that function of the arguments, the seven arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v19)
        = Cert.KernelIdeal.Chain.tail (poolRef (m ((c : Thread nD τ).loc main_arg1)) (Cert.KernelIdeal.Chain.mid (poolRef (m ((c : Thread nD τ).loc main_arg1))
            (Cert.KernelIdeal.Chain.pre (m ((c : Thread nD τ).loc main_arg0)) (m ((c : Thread nD τ).loc main_arg2)) (m ((c : Thread nD τ).loc main_arg3)) (m ((c : Thread nD τ).loc main_arg4)))) (m ((c : Thread nD τ).loc main_arg5)) (m ((c : Thread nD τ).loc main_arg6))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m c), (h c).2⟩) (run_ends m ρ)

end Cert.KernelIdeal.Pool

end
-- ==== Proof.lean ====
/-
  A two-layer graph network over a dense adjacency matrix: embeddings gathered at the (wrapped) node indices, a dense
  layer and rectifier, a pooling step (the adjacency matrix times the features), a second dense layer and rectifier, a
  second pooling step, and the sum over the nodes.  The kernel program does each pooling step on an 8 x 8 grid of
  2048 x 2048 tiles of the adjacency matrix, accumulating the eight tile products of a row tile in a scratch buffer that
  is reset at the first reduction tile and copied out at the last; the reference does each pooling step as one matrix
  product.  Every other operation is the same in both.

  Over the extended reals a change of float format is the identity, so the kernel's tile products are exact, and the
  accumulated sum 0 + s_0 + ... + s_7 of the eight tile products is the whole contraction over the 16384 columns,
  regrouped by tiles: only associativity and commutativity of + are used, so the finiteness precondition is never
  opened.  Hence each pooling step leaves the adjacency product in its output array, and the two programs end with
  the same result as one function of the arguments.

  The three frames: each kernel program is run as seven items (host stretches and the two pooling steps), every buffer's
  contents followed from the launch to the end; no item writes an argument.  The reference is a straight line of host
  operations.  The idealization rewrote no operation, so there is nothing to preserve.
-/
import proofs.«112922_j28157805593353_1_alg».proof.Defs
import proofs.«112922_j28157805593353_1_alg».proof.Proof.Gen.Kernel
import proofs.«112922_j28157805593353_1_alg».proof.Proof.Gen.KernelIdeal
import proofs.«112922_j28157805593353_1_alg».proof.Proof.Gen.ReferenceIdeal
import proofs.«112922_j28157805593353_1_alg».proof.Proof.Gen.Pre_finite_inputs
import proofs.«112922_j28157805593353_1_alg».proof.Proof.KEnds
import proofs.«112922_j28157805593353_1_alg».proof.Proof.Value
import proofs.«112922_j28157805593353_1_alg».proof.Proof.RefRun

noncomputable section

namespace Cert.Proof

open Idealize.ShloMosaic Idealize.ShloMosaic.TcCoe Idealize.SL.Sem

/-- The word-level kernel program runs to its end and leaves its arguments unchanged. -/
theorem frame_k : Cert.frame_Kernel := fun m ρ _ => Cert.Kernel.Pool.frame m ρ
/-- So does its idealization. -/
theorem frame_ki : Cert.frame_KernelIdeal := fun m ρ _ => Cert.KernelIdeal.Pool.frame m ρ
/-- So does the reference: its run, with the result dropped. -/
theorem frame_ri : Cert.frame_ReferenceIdeal := fun m ρ _ =>
  (θ_run Cert.ReferenceIdeal.defs _ _).mono (fun _ h c => (h c).2) (Cert.Proof.Ref.run_value m ρ)

/-- The idealization is the program's own text read over the extended reals: no rewrite to account for. -/
theorem preserves : Cert.preserves_Kernel_KernelIdeal := trivial

/-- Over the extended reals both programs end with the row sum of the adjacency product of the second layer's
    rectified output, itself computed from the adjacency product of the first layer's: one function of arguments that agree. -/
theorem algebraic : Cert.algebraic_KernelIdeal_ReferenceIdeal := by
  intro m ρ m' ρ' _ hagree
  refine ⟨_, Cert.KernelIdeal.Pool.run_value m ρ, ?_⟩
  refine (θ_run Cert.ReferenceIdeal.defs _ _).mono (fun _ h c => ⟨(h c).1.trans ?_, (h c).2⟩) (Cert.Proof.Ref.run_value m' ρ')
  rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
